-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1000 : Shape := ⟨2, ![100000, 1000]⟩
abbrev S2x3200000 : Shape := ⟨2, ![2, 3200000]⟩
abbrev S1000x16 : Shape := ⟨2, ![1000, 16]⟩
abbrev S16 : Shape := ⟨1, ![16]⟩
abbrev S16x20 : Shape := ⟨2, ![16, 20]⟩
abbrev S20 : Shape := ⟨1, ![20]⟩
abbrev S_ : Shape := ⟨0, ![]⟩

class Facts : Prop where
  bcast_S_S100000x1000 : S_.BroadcastsInDim S100000x1000 (![] : Fin 0 → Fin S100000x1000.rank)
  reducesTo_S100000x1000_S_d0_1 : S100000x1000.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_
  bcast_S_S16 : S_.BroadcastsInDim S16 (![] : Fin 0 → Fin S16.rank)
  reducesTo_S16_S_d0 : S16.ReducesTo [0] S_
  bcast_S_S16x20 : S_.BroadcastsInDim S16x20 (![] : Fin 0 → Fin S16x20.rank)
  reducesTo_S16x20_S_d0_1 : S16x20.ReducesTo [0, 1] S_
  bcast_S_S20 : S_.BroadcastsInDim S20 (![] : Fin 0 → Fin S20.rank)
  reducesTo_S20_S_d0 : S20.ReducesTo [0] S_

variable [Facts]

def fn_part1 {F : FTy → Type} [FloatOps F] (main_arg5 : FVec F S20 .f32) (main_v13 : IVec S_ 1) (main_v16 : IVec S16x20 1) : IVec S_ 1 :=
  let main_c_5 : IVec S_ 1 := constantI S_ 1 1#1
  let main_v17 : IVec S_ 1 := (fun x v => Host.reduce IntOp.andi x v reducesTo_S16x20_S_d0_1 h_S_) main_v16 main_c_5
  let main_v18 : IVec S_ 1 := andi main_v13 main_v17
  let main_v19 : FVec F S20 .f32 := Host.absf main_arg5
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  main_v23

def fn {F : FTy → Type} [FloatOps F] (main_arg0 : FVec F S100000x1000 .f32) (main_arg1 : IVec S2x3200000 32) (main_arg2 : FVec F S1000x16 .f32) (main_arg3 : FVec F S16 .f32) (main_arg4 : FVec F S16x20 .f32) (main_arg5 : FVec F S20 .f32) : IVec S_ 1 :=
  let main_v0 : FVec F S100000x1000 .f32 := Host.absf main_arg0
  let main_cst : FVec F S_ .f32 := constant S_ .f32 0x7F800000#32
  let main_v1 : FVec F S100000x1000 .f32 := broadcastInDim S100000x1000 ![] bcast_S_S100000x1000 main_cst
  let main_v2 : IVec S100000x1000 1 := cmpf .olt main_v0 main_v1
  let main_c : IVec S_ 1 := constantI S_ 1 1#1
  let main_v3 : IVec S_ 1 := (fun x v => Host.reduce IntOp.andi x v reducesTo_S100000x1000_S_d0_1 h_S_) main_v2 main_c
  let main_v4 : FVec F S1000x16 .f32 := Host.absf main_arg2
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x20 .f32 := Host.absf main_arg4
  let main_cst_4 : FVec F S_ .f32 := constant S_ .f32 0x7F800000#32
  let main_v15 : FVec F S16x20 .f32 := broadcastInDim S16x20 ![] bcast_S_S16x20 main_cst_4
  let main_v16 : IVec S16x20 1 := cmpf .olt main_v14 main_v15
  fn_part1 (F := F) main_arg5 main_v13 main_v16
-- ==== Kernel.lean ====
abbrev S100000x1000 : Shape := ⟨2, ![100000, 1000]⟩
abbrev S2x3200000 : Shape := ⟨2, ![2, 3200000]⟩
abbrev S1000x16 : Shape := ⟨2, ![1000, 16]⟩
abbrev S16 : Shape := ⟨1, ![16]⟩
abbrev S16x20 : Shape := ⟨2, ![16, 20]⟩
abbrev S20 : Shape := ⟨1, ![20]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1000 : Shape := ⟨2, ![2000, 1000]⟩
abbrev S2000x16 : Shape := ⟨2, ![2000, 16]⟩
abbrev S3300000x16 : Shape := ⟨2, ![3300000, 16]⟩
abbrev S1x16 : Shape := ⟨2, ![1, 16]⟩
abbrev S100000x20 : Shape := ⟨2, ![100000, 20]⟩
abbrev S2000x20 : Shape := ⟨2, ![2000, 20]⟩
abbrev S3300000x20 : Shape := ⟨2, ![3300000, 20]⟩
abbrev S1x20 : Shape := ⟨2, ![1, 20]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S100000x1000, .f32⟩
  | .hbm, ⟨1, _⟩ => ⟨S2x3200000, .i32⟩
  | .hbm, ⟨2, _⟩ => ⟨S1000x16, .f32⟩
  | .hbm, ⟨3, _⟩ => ⟨S16, .f32⟩
  | .hbm, ⟨4, _⟩ => ⟨S16x20, .f32⟩
  | .hbm, ⟨5, _⟩ => ⟨S20, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x20, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x20, .f32⟩
  | .hbm, ⟨75, _⟩ => ⟨S3300000x1, .f32⟩
  | .hbm, ⟨76, _⟩ => ⟨S3300000x20, .f32⟩
  | .hbm, ⟨77, _⟩ => ⟨S3300000x20, .f32⟩
  | .hbm, ⟨78, _⟩ => ⟨S_, .f32⟩
  | .hbm, ⟨79, _⟩ => ⟨S100000x20, .f32⟩
  | .hbm, ⟨80, _⟩ => ⟨S3300000x1, .i32⟩
  | .hbm, ⟨81, _⟩ => ⟨S100000x20, .f32⟩
  | .hbm, ⟨82, _⟩ => ⟨S1x20, .f32⟩
  | .hbm, ⟨83, _⟩ => ⟨S100000x20, .f32⟩
  | .local _ .vmem, ⟨0, _⟩ => ⟨S2000x1000, .f32⟩
  | .local _ .vmem, ⟨1, _⟩ => ⟨S2000x1000, .f32⟩
  | .local _ .vmem, ⟨2, _⟩ => ⟨S1000x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x20, .f32⟩
  | .local _ .vmem, ⟨13, _⟩ => ⟨S2000x20, .f32⟩
  | .local _ .vmem, ⟨14, _⟩ => ⟨S2000x20, .f32⟩
  | .local _ .vmem, ⟨15, _⟩ => ⟨S2000x20, .f32⟩
  | .local _ .vmem, ⟨16, _⟩ => ⟨S2000x20, .f32⟩
  | .local _ .vmem, ⟨17, _⟩ => ⟨S1x20, .f32⟩
  | .local _ .vmem, ⟨18, _⟩ => ⟨S2000x20, .f32⟩
  | .local _ .vmem, ⟨19, _⟩ => ⟨S2000x20, .f32⟩
  | _, _ => ⟨S100000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x20 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x20 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x20 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x20 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x20 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1000_S2000x1000_0_0 : ∀ a, (![0, 0] : Fin 2 → Nat) a + S2000x1000.size a ≤ S2000x1000.size a
  h_S2000x1000 : 0 < S2000x1000.numel
  bitsLt_bf16_f32 : FTy.bits .bf16 < FTy.bits .f32
  inb_S1000x16_S1000x16_0_0 : ∀ a, (![0, 0] : Fin 2 → Nat) a + S1000x16.size a ≤ S1000x16.size a
  h_S1000x16 : 0 < S1000x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x20_S16x20_0_0 : ∀ a, (![0, 0] : Fin 2 → Nat) a + S16x20.size a ≤ S16x20.size a
  h_S16x20 : 0 < S16x20.numel
  inb_S2000x20_S2000x20_0_0 : ∀ a, (![0, 0] : Fin 2 → Nat) a + S2000x20.size a ≤ S2000x20.size a
  h_S2000x20 : 0 < S2000x20.numel
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  shapeCasts_S20_S1x20 : S20.ShapeCasts S1x20
  shapeCasts_S2000x20_S2000x20 : S2000x20.ShapeCasts S2000x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S2000x20 : S1x20.Broadcasts S2000x20
  reduces_S2000x20_S2000 : S2000x20.Reduces [1] S2000
  shapeCasts_S2000_S2000x1 : S2000.ShapeCasts S2000x1
  broadcasts_S2000x1_S2000x20 : S2000x1.Broadcasts S2000x20
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1000_S1000x16_S2000x16_1_0_0_1_n_n_wf : DotDims.WF S2000x1000 S1000x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x20_S2000x20_1_0_0_1_n_n_wf : DotDims.WF S2000x16 S16x20 S2000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1000.size a ≤ S100000x1000.size a
  hwx0_0 : ∀ i : grid0.Coords, EltTy.bits .f32 = 32 ∨ (Rect.block (s := S100000x1000) S2000x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x16.size a ≤ S1000x16.size a
  hwx0_1 : ∀ i : grid0.Coords, EltTy.bits .f32 = 32 ∨ (Rect.block (s := S1000x16) S1000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x20.size a ≤ S16x20.size a
  hwx2_1 : ∀ i : grid2.Coords, EltTy.bits .f32 = 32 ∨ (Rect.block (s := S16x20) S16x20.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x20.size a ≤ S100000x20.size a
  hwx2_2 : ∀ i : grid2.Coords, EltTy.bits .f32 = 32 ∨ (Rect.block (s := S100000x20) S2000x20.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x20.size a ≤ S100000x20.size a
  hwx3_0 : ∀ i : grid3.Coords, EltTy.bits .f32 = 32 ∨ (Rect.block (s := S100000x20) S2000x20.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x20.size a ≤ S1x20.size a
  hwx3_1 : ∀ i : grid3.Coords, EltTy.bits .f32 = 32 ∨ (Rect.block (s := S1x20) S1x20.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x20.size a ≤ S100000x20.size a
  hwx3_2 : ∀ i : grid3.Coords, EltTy.bits .f32 = 32 ∨ (Rect.block (s := S100000x20) S2000x20.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1000_S1000x16_S2000x16_1_0_0_1_n_n : DotDims S2000x1000 S1000x16 S2000x16 where
  lhsContracting := [1]
  rhsContracting := [0]
  lhsNonContracting := [0]
  rhsNonContracting := [1]
  lhsBatch := []
  rhsBatch := []
  wf := dot_S2000x1000_S1000x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x20_S2000x20_1_0_0_1_n_n : DotDims S2000x16 S16x20 S2000x20 where
  lhsContracting := [1]
  rhsContracting := [0]
  lhsNonContracting := [0]
  rhsNonContracting := [1]
  lhsBatch := []
  rhsBatch := []
  wf := dot_S2000x16_S16x20_S2000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf

abbrev win0_0 : Pipeline.Window sig grid0 :=
  Pipeline.Window.ofSpec (Memref.whole main_arg0) S2000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x20.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x20.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x20.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x20.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x20.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x1000 : Shape := ⟨2, ![100000, 1000]⟩
abbrev S2x3200000 : Shape := ⟨2, ![2, 3200000]⟩
abbrev S1000x16 : Shape := ⟨2, ![1000, 16]⟩
abbrev S16 : Shape := ⟨1, ![16]⟩
abbrev S16x20 : Shape := ⟨2, ![16, 20]⟩
abbrev S20 : Shape := ⟨1, ![20]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x20 : Shape := ⟨2, ![100000, 20]⟩
abbrev S3300000x20 : Shape := ⟨2, ![3300000, 20]⟩
abbrev S1x20 : Shape := ⟨2, ![1, 20]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x1000, .f32⟩
  | .hbm, ⟨1, _⟩ => ⟨S2x3200000, .i32⟩
  | .hbm, ⟨2, _⟩ => ⟨S1000x16, .f32⟩
  | .hbm, ⟨3, _⟩ => ⟨S16, .f32⟩
  | .hbm, ⟨4, _⟩ => ⟨S16x20, .f32⟩
  | .hbm, ⟨5, _⟩ => ⟨S20, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x20, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x20, .f32⟩
  | .hbm, ⟨79, _⟩ => ⟨S3300000x1, .f32⟩
  | .hbm, ⟨80, _⟩ => ⟨S3300000x20, .f32⟩
  | .hbm, ⟨81, _⟩ => ⟨S3300000x20, .f32⟩
  | .hbm, ⟨82, _⟩ => ⟨S_, .f32⟩
  | .hbm, ⟨83, _⟩ => ⟨S100000x20, .f32⟩
  | .hbm, ⟨84, _⟩ => ⟨S3300000x1, .i32⟩
  | .hbm, ⟨85, _⟩ => ⟨S100000x20, .f32⟩
  | .hbm, ⟨86, _⟩ => ⟨S1x20, .f32⟩
  | .hbm, ⟨87, _⟩ => ⟨S100000x20, .f32⟩
  | .hbm, ⟨88, _⟩ => ⟨S100000x20, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x20, .f32⟩
  | .hbm, ⟨96, _⟩ => ⟨S100000x20, .f32⟩
  | .hbm, ⟨97, _⟩ => ⟨S100000x20, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x20, .f32⟩
  | .hbm, ⟨103, _⟩ => ⟨S100000x20, .f32⟩
  | _, _ => ⟨S100000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x20_0_1 : S3300000x1.BroadcastsInDim S3300000x20 (![0, 1] : Fin 2 → Fin S3300000x20.rank)
  bcast_S_S100000x20 : S_.BroadcastsInDim S100000x20 (![] : Fin 0 → Fin S100000x20.rank)
  bcast_S20_S1x20_1 : S20.BroadcastsInDim S1x20 (![1] : Fin 1 → Fin S1x20.rank)
  bcast_S1x20_S100000x20_0_1 : S1x20.BroadcastsInDim S100000x20 (![0, 1] : Fin 2 → Fin S100000x20.rank)
  reducesTo_S100000x20_S100000_d1 : S100000x20.ReducesTo [1] S100000
  h_S_ : 0 < S_.numel
  bcast_S100000_S100000x1_0 : S100000.BroadcastsInDim S100000x1 (![0] : Fin 1 → Fin S100000x1.rank)
  bcast_S100000x1_S100000x20_0_1 : S100000x1.BroadcastsInDim S100000x20 (![0, 1] : Fin 2 → Fin S100000x20.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1000_S1000x16_S100000x16_1_0_0_1_n_n_wf : DotDims.WF S100000x1000 S1000x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x20_S100000x20_1_0_0_1_n_n_wf : DotDims.WF S100000x16 S16x20 S100000x20 [1] [0] [0] [1] [] []
  gather_S100000x20_S3300000x1_S3300000x20_1_0_n_n_0_1_120_wf : GatherDims.WF S100000x20 S3300000x1 S3300000x20 [1] [0] [] [0] [] 1 ![1, 20]
  scatter_S100000x20_S3300000x1_S3300000x20_1_0_0_1_wf : ScatterDims.WF S100000x20 S3300000x1 S3300000x20 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1000_S1000x16_S100000x16_1_0_0_1_n_n : DotDims S100000x1000 S1000x16 S100000x16 where
  lhsContracting := [1]
  rhsContracting := [0]
  lhsNonContracting := [0]
  rhsNonContracting := [1]
  lhsBatch := []
  rhsBatch := []
  wf := dot_S100000x1000_S1000x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x20_S100000x20_1_0_0_1_n_n : DotDims S100000x16 S16x20 S100000x20 where
  lhsContracting := [1]
  rhsContracting := [0]
  lhsNonContracting := [0]
  rhsNonContracting := [1]
  lhsBatch := []
  rhsBatch := []
  wf := dot_S100000x16_S16x20_S100000x20_1_0_0_1_n_n_wf
def gather_S100000x20_S3300000x1_S3300000x20_1_0_n_n_0_1_120 : GatherDims S100000x20 S3300000x1 S3300000x20 where
  offsetDims := [1]
  collapsedSliceDims := [0]
  operandBatchingDims := []
  startIndicesBatchingDims := []
  startIndexMap := [0]
  indexVectorDim := 1
  sliceSizes := ![1, 20]
  wf := gather_S100000x20_S3300000x1_S3300000x20_1_0_n_n_0_1_120_wf
def scatter_S100000x20_S3300000x1_S3300000x20_1_0_0_1 : ScatterDims S100000x20 S3300000x1 S3300000x20 where
  updateWindowDims := [1]
  insertedWindowDims := [0]
  scatterDimsToOperandDims := [0]
  indexVectorDim := 1
  wf := scatter_S100000x20_S3300000x1_S3300000x20_1_0_0_1_wf

class Facts : Prop extends Facts₀ where

variable [Facts]
-- ==== Proof.KernelRun.lean ====
/-
  The run of the idealized kernel program with its RESULT named.

  @main is nine segments: three stretches of host operations (the edge lists with self loops and the symmetric
  degree weight of every edge), the first dense product, a stretch (gather the rows of the product at the edges'
  sources, scale by the edge weights, add them up at the edges' targets), the bias-and-rectify region, the second
  dense product, the same gather / scale / add stretch, and the bias-and-log-softmax region. The frame proof of
  this program reads, at the end of the run, every buffer that outlives a region against the fold `W9` of those
  segments over the launch memory, and keeps only the six argument arrays. Here the same reading keeps one more
  buffer, the result array: every weakly fair execution terminates with the result at `W9` of its buffer and the
  arguments as launched.
-/
import proofs.«170878_j37941741093521_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents of its buffer and every argument array as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.GcnRun

end
-- ==== Proof.Stages.lean ====
/-
  The stages of the two-layer graph convolution, each as one function of the arrays before it.

  The edge list `e` (two rows of 3200000 node numbers) is extended by one self loop per node: `sources e` and `targets e`
  are the 3300000 source and target nodes. A node number below zero counts from the end (`wrapIndex`). The degree of
  a node is the number of edges arriving at it, `invSqrtDegree` its inverse square root (zero where the degree is not
  positive), and the weight of an edge is the product of that number at its two ends (`edgeWeight`). One propagation
  step gathers the rows of a node array at the edges' sources, scales each by its edge's weight and adds them up at the
  edges' targets (`propagate16`, `propagate20`: rows of 16 and of 20). The hidden layer is the rectified
  `propagate16 (X·W₁) + b₁`, the logits are `propagate20 (hidden·W₂) + b₂`, and the result is the row-wise
  log-softmax of the logits: every entry minus its row's maximum, minus the logarithm of the row's sum of exponentials
  of those differences. Each definition spells its operations exactly as the reference program lists them.
-/
import proofs.«170878_j37941741093521_1_alg».proof.ReferenceIdeal
import proofs.«170878_j37941741093521_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The source node of every edge, the self loops last. -/
def sources (x1 : (⟨S2x3200000, .i32⟩ : BufTy).Contents (Elt F)) : (⟨S3300000, .i32⟩ : BufTy).Contents (Elt F) :=
  (concatenate S3300000 0 [⟨S3200000, (shapeCast _ (extractStridedSlice S1x3200000 ![0, 0] x1 slices_S2x3200000_S1x3200000_0_0) shapeCasts_S1x3200000_S3200000)⟩, ⟨S100000, (iotaInDim S100000 32 0)⟩] concatenates_S3200000_S100000_S3300000_d0)
/-- The target node of every edge, the self loops last. -/
def targets (x1 : (⟨S2x3200000, .i32⟩ : BufTy).Contents (Elt F)) : (⟨S3300000, .i32⟩ : BufTy).Contents (Elt F) :=
  (concatenate S3300000 0 [⟨S3200000, (shapeCast _ (extractStridedSlice S1x3200000 ![1, 0] x1 slices_S2x3200000_S1x3200000_1_0) shapeCasts_S1x3200000_S3200000)⟩, ⟨S100000, (iotaInDim S100000 32 0)⟩] concatenates_S3200000_S100000_S3300000_d0)
/-- A node number below zero counts from the end of the node axis. -/
def wrapIndex (v : (⟨S3300000, .i32⟩ : BufTy).Contents (Elt F)) : (⟨S3300000, .i32⟩ : BufTy).Contents (Elt F) :=
  (select (cmpi .slt v (broadcastInDim S3300000 ![] bcast_S_S3300000 (constantI S_ 32 0#32))) (addi v (broadcastInDim S3300000 ![] bcast_S_S3300000 (constantI S_ 32 100000#32))) v)
/-- The number of edges arriving at each node. -/
def degree (x1 : (⟨S2x3200000, .i32⟩ : BufTy).Contents (Elt F)) : (⟨S100000, .f32⟩ : BufTy).Contents (Elt F) :=
  (Host.scatterAdd scatter_S100000_S3300000x1_S3300000_n_0_0_1 (broadcastInDim S100000 ![] bcast_S_S100000 (constant S_ .f32 0x00000000#32)) (broadcastInDim S3300000x1 ![0] bcast_S3300000_S3300000x1_0 (targets (F := F) x1)) (broadcastInDim S3300000 ![] bcast_S_S3300000 (constant S_ .f32 0x3F800000#32)))
/-- Its inverse square root, zero where the degree is not positive. -/
def invSqrtDegree (x1 : (⟨S2x3200000, .i32⟩ : BufTy).Contents (Elt F)) : (⟨S100000, .f32⟩ : BufTy).Contents (Elt F) :=
  (select (cmpf (F := F) .ogt (degree (F := F) x1) (broadcastInDim S100000 ![] bcast_S_S100000 (constant S_ .f32 0x00000000#32))) (Host.rsqrt (degree (F := F) x1)) (broadcastInDim S100000 ![] bcast_S_S100000 (id (constant S_ .f32 0x00000000#32))))
/-- The weight of an edge: the inverse square roots of the degrees at its two ends, multiplied. -/
def edgeWeight (x1 : (⟨S2x3200000, .i32⟩ : BufTy).Contents (Elt F)) : (⟨S3300000, .f32⟩ : BufTy).Contents (Elt F) :=
  (mulf (Host.gather gather_S100000_S3300000x1_S3300000_n_0_n_n_0_1_1 (invSqrtDegree (F := F) x1) (broadcastInDim S3300000x1 ![0] bcast_S3300000_S3300000x1_0 (wrapIndex (F := F) (sources (F := F) x1)))) (Host.gather gather_S100000_S3300000x1_S3300000_n_0_n_n_0_1_1 (invSqrtDegree (F := F) x1) (broadcastInDim S3300000x1 ![0] bcast_S3300000_S3300000x1_0 (wrapIndex (F := F) (targets (F := F) x1)))))
/-- One propagation step on rows of 16: gather at the sources, scale by the edge weights, add up at the targets. -/
def propagate16 (h : (⟨S100000x16, .f32⟩ : BufTy).Contents (Elt F)) (x1 : (⟨S2x3200000, .i32⟩ : BufTy).Contents (Elt F)) : (⟨S100000x16, .f32⟩ : BufTy).Contents (Elt F) :=
  (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 (targets (F := F) x1)) (mulf (Host.gather gather_S100000x16_S3300000x1_S3300000x16_1_0_n_n_0_1_116 h (broadcastInDim S3300000x1 ![0] bcast_S3300000_S3300000x1_0 (wrapIndex (F := F) (sources (F := F) x1)))) (broadcastInDim S3300000x16 ![0, 1] bcast_S3300000x1_S3300000x16_0_1 (broadcastInDim S3300000x1 ![0] bcast_S3300000_S3300000x1_0 (edgeWeight (F := F) x1)))))
/-- The same on rows of 20. -/
def propagate20 (h : (⟨S100000x20, .f32⟩ : BufTy).Contents (Elt F)) (x1 : (⟨S2x3200000, .i32⟩ : BufTy).Contents (Elt F)) : (⟨S100000x20, .f32⟩ : BufTy).Contents (Elt F) :=
  (Host.scatterAdd scatter_S100000x20_S3300000x1_S3300000x20_1_0_0_1 (broadcastInDim S100000x20 ![] bcast_S_S100000x20 (constant S_ .f32 0x00000000#32)) (broadcastInDim S3300000x1 ![0] bcast_S3300000_S3300000x1_0 (targets (F := F) x1)) (mulf (Host.gather gather_S100000x20_S3300000x1_S3300000x20_1_0_n_n_0_1_120 h (broadcastInDim S3300000x1 ![0] bcast_S3300000_S3300000x1_0 (wrapIndex (F := F) (sources (F := F) x1)))) (broadcastInDim S3300000x20 ![0, 1] bcast_S3300000x1_S3300000x20_0_1 (broadcastInDim S3300000x1 ![0] bcast_S3300000_S3300000x1_0 (edgeWeight (F := F) x1)))))
/-- The hidden layer: the first dense product propagated, the bias added, negative entries set to zero. -/
def hidden (x0 : (⟨S100000x1000, .f32⟩ : BufTy).Contents (Elt F)) (x1 : (⟨S2x3200000, .i32⟩ : BufTy).Contents (Elt F)) (x2 : (⟨S1000x16, .f32⟩ : BufTy).Contents (Elt F)) (x3 : (⟨S16, .f32⟩ : BufTy).Contents (Elt F)) : (⟨S100000x16, .f32⟩ : BufTy).Contents (Elt F) :=
  (maximumf (addf (propagate16 (F := F) (Host.dotGeneral dot_S100000x1000_S1000x16_S100000x16_1_0_0_1_n_n none x0 x2) x1) (broadcastInDim S100000x16 ![0, 1] bcast_S1x16_S100000x16_0_1 (broadcastInDim S1x16 ![1] bcast_S16_S1x16_1 x3))) (broadcastInDim S100000x16 ![] bcast_S_S100000x16 (constant S_ .f32 0x00000000#32)))
/-- The logits: the second dense product of the hidden layer propagated, the bias added. -/
def logits (x0 : (⟨S100000x1000, .f32⟩ : BufTy).Contents (Elt F)) (x1 : (⟨S2x3200000, .i32⟩ : BufTy).Contents (Elt F)) (x2 : (⟨S1000x16, .f32⟩ : BufTy).Contents (Elt F)) (x3 : (⟨S16, .f32⟩ : BufTy).Contents (Elt F)) (x4 : (⟨S16x20, .f32⟩ : BufTy).Contents (Elt F)) (x5 : (⟨S20, .f32⟩ : BufTy).Contents (Elt F)) : (⟨S100000x20, .f32⟩ : BufTy).Contents (Elt F) :=
  (addf (propagate20 (F := F) (Host.dotGeneral dot_S100000x16_S16x20_S100000x20_1_0_0_1_n_n none (hidden (F := F) x0 x1 x2 x3) x4) x1) (broadcastInDim S100000x20 ![0, 1] bcast_S1x20_S100000x20_0_1 (broadcastInDim S1x20 ![1] bcast_S20_S1x20_1 x5)))
/-- Row-wise log-softmax. -/
def logSoftmaxRows (z : (⟨S100000x20, .f32⟩ : BufTy).Contents (Elt F)) : (⟨S100000x20, .f32⟩ : BufTy).Contents (Elt F) :=
  subf (subf z (broadcastInDim S100000x20 ![0, 1] bcast_S100000x1_S100000x20_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x20_S100000_d1 h_S_))))) (broadcastInDim S100000x20 ![0, 1] bcast_S100000x1_S100000x20_0_1 (Host.log (broadcastInDim S100000x1 ![0] bcast_S100000_S100000x1_0 (Host.reduceAdd (Host.exp (subf z (broadcastInDim S100000x20 ![0, 1] bcast_S100000x1_S100000x20_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x20_S100000_d1 h_S_)))))) (constant S_ .f32 0x00000000#32) reducesTo_S100000x20_S100000_d1 h_S_))))

end Cert.Gcn

end
-- ==== Proof.ChainEdges.lean ====
/-
  What the buffers hold when the first dense product is entered.

  Before the first region @main computes, from the edge list alone, the source and target node of every edge (self
  loops appended) and every edge's weight; no operation there writes an argument array. The operations come in three
  stretches. The first extends the edge list and counts the degrees: it leaves the sources, the targets, where the
  degree is positive, the inverse square roots of the degrees, and a scalar zero. The second selects, node by node,
  the inverse square root where the degree is positive and zero elsewhere. The third gathers that number at every
  edge's two ends and multiplies: the edge's weight. Each stretch is read by itself, over any contents of the buffers
  before it, as the composition of its few operations; composed at the launch contents they say that at the first
  region's entry the three buffers hold "sources", "targets" and "edgeWeight" of the launched edge list, and the
  feature, weight and bias arrays are as launched.
-/
import proofs.«170878_j37941741093521_1_alg».proof.Proof.Gen.KernelIdeal.Frame
import proofs.«170878_j37941741093521_1_alg».proof.Proof.Stages
import Idealize.ShloMosaic.Lib.StableHlo.Run
import Idealize.ShloMosaic.PureOps.Ideal

noncomputable section

namespace Cert.KernelIdeal.Chain

open Cert.KernelIdeal Cert.KernelIdeal.Gen
open Idealize.ShloMosaic Idealize.ShloMosaic.TcCoe Idealize.SL.Sem Idealize.ShloMosaic.StableHlo

/-! ## The three host stretches before the first dense product, each over any contents W of the buffers before it -/

section Stretches
variable (W : Valuation τ sig (Elt Ideal))

/-! ### The first stretch: the edge list extended by the self loops, and the degrees -/

/-- The first stretch leaves the source nodes of the edges, the self loops last, … -/
theorem first_sources :
    StableHlo.after (hostOps0 (F := Ideal)) W (Proc.devRef .tc main_v3) = Cert.Gcn.sources (F := Ideal) (W (Proc.devRef .tc main_arg1)) := by
  after_results_simp
  rfl

/-- … the target nodes, … -/
theorem first_targets :
    StableHlo.after (hostOps0 (F := Ideal)) W (Proc.devRef .tc main_v6) = Cert.Gcn.targets (F := Ideal) (W (Proc.devRef .tc main_arg1)) := by
  after_results_simp
  rfl

/-- … where the degree of a node (the ones added up at the target nodes) is positive, … -/
theorem first_positive :
    StableHlo.after (hostOps0 (F := Ideal)) W (Proc.devRef .tc main_v12)
      = cmpf (F := Ideal) .ogt (Cert.Gcn.degree (F := Ideal) (W (Proc.devRef .tc main_arg1)))
          (broadcastInDim Cert.ReferenceIdeal.S100000 ![] Cert.ReferenceIdeal.Facts₀.bcast_S_S100000 (constant (F := Ideal) Cert.ReferenceIdeal.S_ .f32 0x00000000#32)) := by
  after_results_simp
  rfl

/-- … the inverse square roots of the degrees, … -/
theorem first_rsqrt :
    StableHlo.after (hostOps0 (F := Ideal)) W (Proc.devRef .tc main_v13)
      = Host.rsqrt (F := Ideal) (s := Cert.ReferenceIdeal.S100000) (φ := .f32) (Cert.Gcn.degree (F := Ideal) (W (Proc.devRef .tc main_arg1))) := by
  after_results_simp
  rfl

/-- … and a scalar zero. -/
theorem first_zero :
    StableHlo.after (hostOps0 (F := Ideal)) W (Proc.devRef .tc main_cst_2)
      = constant (F := Ideal) Cert.ReferenceIdeal.S_ .f32 0x00000000#32 := by
  after_results_simp

/-! ### The second stretch: the select between the inverse square roots and zero -/

/-- The second stretch selects, node by node, the third buffer's value where the first holds true and the
    broadcast scalar elsewhere. -/
theorem second_select :
    StableHlo.after (hostOps0_1 (F := Ideal)) W (Proc.devRef .tc main_v14)
      = select (W (Proc.devRef .tc main_v12) : (⟨Cert.ReferenceIdeal.S100000, .i1⟩ : BufTy).Contents (Elt Ideal))
          (W (Proc.devRef .tc main_v13) : (⟨Cert.ReferenceIdeal.S100000, .f32⟩ : BufTy).Contents (Elt Ideal))
          (broadcastInDim Cert.ReferenceIdeal.S100000 ![] Cert.ReferenceIdeal.Facts₀.bcast_S_S100000
            (id (W (Proc.devRef .tc main_cst_2) : (⟨Cert.ReferenceIdeal.S_, .f32⟩ : BufTy).Contents (Elt Ideal)))) := by
  after_results_simp
  rfl

/-- It writes neither the sources' buffer … -/
theorem second_keeps_v3 :
    StableHlo.after (hostOps0_1 (F := Ideal)) W (Proc.devRef .tc main_v3) = W (Proc.devRef .tc main_v3) := by
  after_results_simp
/-- … nor the targets'. -/
theorem second_keeps_v6 :
    StableHlo.after (hostOps0_1 (F := Ideal)) W (Proc.devRef .tc main_v6) = W (Proc.devRef .tc main_v6) := by
  after_results_simp

/-! ### The third stretch: the edge weights -/

/-- From the sources, the targets and the inverse square roots of the degrees, the third stretch leaves every edge's
    weight: the inverse square roots gathered at the edge's wrapped source and target, multiplied. -/
theorem third_edgeWeight (e : (⟨Cert.ReferenceIdeal.S2x3200000, .i32⟩ : BufTy).Contents (Elt Ideal))
    (h3 : W (Proc.devRef .tc main_v3) = Cert.Gcn.sources (F := Ideal) e)
    (h6 : W (Proc.devRef .tc main_v6) = Cert.Gcn.targets (F := Ideal) e)
    (h14 : W (Proc.devRef .tc main_v14) = Cert.Gcn.invSqrtDegree (F := Ideal) e) :
    StableHlo.after (hostOps0_2 (F := Ideal)) W (Proc.devRef .tc main_v29) = Cert.Gcn.edgeWeight (F := Ideal) e := by
  after_results_simp
  rw [h3, h6, h14]
  unfold Cert.Gcn.edgeWeight Cert.Gcn.wrapIndex
  rfl

/-- It writes neither the sources' buffer … -/
theorem third_keeps_v3 :
    StableHlo.after (hostOps0_2 (F := Ideal)) W (Proc.devRef .tc main_v3) = W (Proc.devRef .tc main_v3) := by
  after_results_simp
/-- … nor the targets'. -/
theorem third_keeps_v6 :
    StableHlo.after (hostOps0_2 (F := Ideal)) W (Proc.devRef .tc main_v6) = W (Proc.devRef .tc main_v6) := by
  after_results_simp

end Stretches

/-! ## Composed: what the buffers hold when the first dense product is entered -/

section Entry
variable (m : (ℓ : Loc nD τ sig) → Buf (Elt Ideal) ℓ) (ρ : Dev nD → PrngReg) (c : Dev nD)

/-- The launched edge list is what the first stretch reads. -/
theorem launch_edges : W0 m ρ c (Proc.devRef .tc main_arg1) = m ((c : Thread nD τ).loc main_arg1) := rfl

theorem entry0_sources :
    W3 m ρ c (Proc.devRef .tc main_v3) = (Cert.Gcn.sources (F := Ideal) (m ((c : Thread nD τ).loc main_arg1)) : Buf (Elt Ideal) ((c : Thread nD τ).loc main_v3)) := by
  show StableHlo.after hostOps0_2 (W2 m ρ c) (Proc.devRef .tc main_v3) = _
  rw [third_keeps_v3]
  show StableHlo.after hostOps0_1 (W1 m ρ c) (Proc.devRef .tc main_v3) = _
  rw [second_keeps_v3]
  exact first_sources (W0 m ρ c)

theorem entry0_targets :
    W3 m ρ c (Proc.devRef .tc main_v6) = (Cert.Gcn.targets (F := Ideal) (m ((c : Thread nD τ).loc main_arg1)) : Buf (Elt Ideal) ((c : Thread nD τ).loc main_v6)) := by
  show StableHlo.after hostOps0_2 (W2 m ρ c) (Proc.devRef .tc main_v6) = _
  rw [third_keeps_v6]
  show StableHlo.after hostOps0_1 (W1 m ρ c) (Proc.devRef .tc main_v6) = _
  rw [second_keeps_v6]
  exact first_targets (W0 m ρ c)

/-- After the second stretch: the inverse square root of the degree where the degree is positive, zero elsewhere. -/
theorem entry_invSqrtDegree :
    W2 m ρ c (Proc.devRef .tc main_v14) = Cert.Gcn.invSqrtDegree (F := Ideal) (m ((c : Thread nD τ).loc main_arg1)) := by
  show StableHlo.after hostOps0_1 (W1 m ρ c) (Proc.devRef .tc main_v14) = _
  rw [second_select]
  show select (StableHlo.after hostOps0 (W0 m ρ c) (Proc.devRef .tc main_v12)) (StableHlo.after hostOps0 (W0 m ρ c) (Proc.devRef .tc main_v13))
      (broadcastInDim Cert.ReferenceIdeal.S100000 ![] Cert.ReferenceIdeal.Facts₀.bcast_S_S100000 (id (StableHlo.after hostOps0 (W0 m ρ c) (Proc.devRef .tc main_cst_2)))) = _
  rw [first_positive, first_rsqrt, first_zero]
  rfl

theorem entry0_edgeWeight :
    W3 m ρ c (Proc.devRef .tc main_v29) = (Cert.Gcn.edgeWeight (F := Ideal) (m ((c : Thread nD τ).loc main_arg1)) : Buf (Elt Ideal) ((c : Thread nD τ).loc main_v29)) := by
  show StableHlo.after hostOps0_2 (W2 m ρ c) (Proc.devRef .tc main_v29) = _
  refine third_edgeWeight (W2 m ρ c) (m ((c : Thread nD τ).loc main_arg1)) ?_ ?_ (entry_invSqrtDegree m ρ c)
  · show StableHlo.after hostOps0_1 (W1 m ρ c) (Proc.devRef .tc main_v3) = _
    rw [second_keeps_v3]
    exact first_sources (W0 m ρ c)
  · show StableHlo.after hostOps0_1 (W1 m ρ c) (Proc.devRef .tc main_v6) = _
    rw [second_keeps_v6]
    exact first_targets (W0 m ρ c)

/-- No operation before the first dense product writes an argument array. -/
theorem entry0_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp
theorem entry0_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp
theorem entry0_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp
theorem entry0_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp
theorem entry0_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

end Entry

end Cert.KernelIdeal.Chain

end
-- ==== Proof.BiasReluRegion.lean ====
/- The bias-and-clamp stage of the first layer, and the bias rows as the host lays them out.

   The stage takes the 100000 x 16 array of aggregated features, adds the same row of 16 biases to every one of
   its rows, and replaces every negative entry by zero. The kernel does this on fifty blocks of 2000 consecutive
   rows, one per grid point, each time against the whole bias row; the specification does it on the whole array at
   once. Entry (r, q) of either result is max (x (r, q) + b (0, q)) 0, and row r is handled by grid point r / 2000,
   so after the fifty write-backs the output array is the whole-array function. Nothing here needs finiteness: a sum
   and a maximum are read entrywise on the extended reals and never rearranged. -/
import proofs.«170878_j37941741093521_1_alg».proof.Proof.Gen.KernelIdeal.Frame
import proofs.«170878_j37941741093521_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BiasReluRegion

open Cert.KernelIdeal Cert.KernelIdeal.Gen Idealize.ShloMosaic Idealize.ShloMosaic.TcCoe Idealize.SL.Sem
open Idealize.ShloMosaic.Pipeline (Dat)
open Idealize.ShloMosaic.ValueIdx

/-! ## The whole-array function, and both sides read at an entry -/

/-- Every row of a 100000 x 16 array plus one bias row, clamped below at zero: the bias row is broadcast down the
    rows, the zero over the whole array. -/
abbrev biasRelu (X : (⟨Cert.ReferenceIdeal.S100000x16, .f32⟩ : BufTy).Contents (Elt Ideal))
    (B : (⟨Cert.ReferenceIdeal.S1x16, .f32⟩ : BufTy).Contents (Elt Ideal)) :
    (⟨Cert.ReferenceIdeal.S100000x16, .f32⟩ : BufTy).Contents (Elt Ideal) :=
  maximumf (addf X (broadcastInDim Cert.ReferenceIdeal.S100000x16 ![0, 1] Cert.ReferenceIdeal.Facts₀.bcast_S1x16_S100000x16_0_1 B))
    (broadcastInDim Cert.ReferenceIdeal.S100000x16 ![] Cert.ReferenceIdeal.Facts₀.bcast_S_S100000x16 (constant (F := Ideal) Cert.ReferenceIdeal.S_ .f32 0x00000000#32))

/-- Entry i of the whole-array function: the entry of the array plus the bias of its column (k is the bias row's
    entry in that column), or zero if that is negative. -/
theorem biasRelu_apply (X : (⟨Cert.ReferenceIdeal.S100000x16, .f32⟩ : BufTy).Contents (Elt Ideal))
    (B : (⟨Cert.ReferenceIdeal.S1x16, .f32⟩ : BufTy).Contents (Elt Ideal))
    (i : Cert.ReferenceIdeal.S100000x16.Idx) (k : Cert.ReferenceIdeal.S1x16.Idx)
    (hk0 : (k 0).val = 0) (hk1 : (k 1).val = (i 1).val) :
    biasRelu X B i = max (X i + B k) (Ideal.ofBits .f32 0x00000000#32) := by
  show max (X i + broadcastInDim Cert.ReferenceIdeal.S100000x16 ![0, 1] Cert.ReferenceIdeal.Facts₀.bcast_S1x16_S100000x16_0_1 B i)
      (broadcastInDim Cert.ReferenceIdeal.S100000x16 ![] Cert.ReferenceIdeal.Facts₀.bcast_S_S100000x16 (constant (F := Ideal) Cert.ReferenceIdeal.S_ .f32 0x00000000#32) i) = _
  rw [broadcastInDim_apply _ Cert.ReferenceIdeal.Facts₀.bcast_S1x16_S100000x16_0_1 B i k (fun a => match a with
      | ⟨0, _⟩ => by show (k 0).val = if (1 : Nat) = 1 then 0 else (i 0).val; rw [if_pos rfl]; exact hk0
      | ⟨1, _⟩ => by show (k 1).val = if (16 : Nat) = 1 then 0 else (i 1).val; rw [if_neg (by decide)]; exact hk1),
    broadcastInDim_apply _ Cert.ReferenceIdeal.Facts₀.bcast_S_S100000x16 _ i ix0 (fun a => a.elim0)]
  rfl

/-- Entry y of what the kernel body computes from a block of 2000 rows and the bias row: the same expression. The
    two casts to the same shape are identities, the bias row is broadcast down the block's rows. -/
theorem pay_apply (x0 : Vec Ideal S2000x16 .f32) (x1 : Vec Ideal S1x16 .f32) (y : S2000x16.Idx) (k : S1x16.Idx)
    (hk0 : (k 0).val = 0) (hk1 : (k 1).val = (y 1).val) :
    k1_pay1 x0 x1 y = max (x0 y + x1 k) (Ideal.ofBits .f32 0x00000000#32) := by
  unfold k1_pay1
  rw [shapeCast_self, shapeCast_self]
  show max (x0 y + broadcastTo S2000x16 x1 _ y) _ = _
  rw [broadcastTo_apply x1 _ y k (fun a => match a with
      | ⟨0, _⟩ => by show (k 0).val = if (1 : Nat) = 1 then 0 else (y 0).val; rw [if_pos rfl]; exact hk0
      | ⟨1, _⟩ => by show (k 1).val = if (16 : Nat) = 1 then 0 else (y 1).val; rw [if_neg (by decide)]; exact hk1)]
  rfl

/-! ## From the fifty blocks to the array -/

section Region
variable (V : (c : Dev nD) → (b : Ref sig .tc) → Buf (Elt Ideal) ((c : Thread nD τ).loc b))

theorem hz : (![0, 0] : Fin 2 → Nat) = fun _ => 0 := funext fun a => by fin_cases a <;> rfl

/-- The block index maps, decided over the fifty grid points: the input rows' block moves with the output's, the
    bias window always shows the whole bias row, and point t handles row block t at column block 0. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What grid point t writes back is block t of the whole-array function of the arrays the region finds: entry j of
    the block sits in the array at row (block index) * 2000 + j's row, in j's column, for the input and the output
    alike, and the bias window's block is the bias row itself. -/
theorem flushed_eq (c : Dev nD) (t : Fin cfg1.N) :
    (dat1 (F := Ideal) V c).flushed 2 t = ((cfg1.win 2).blk t).view.read (Elt Ideal) (biasRelu (V c main_v43) (V c main_v44)) := by
  show (cfg1.win 2).cut (grid1.coords t) ((dat1 V c).after 2 t) = _
  rw [after1_2]
  unfold out1_2
  rw [View.canon_unit_zero hz]
  simp only [View.ld_unit_zero (S := S2000x16) hz, View.ld_unit_zero (S := S1x16) hz]
  obtain ⟨e0, e1, e2, e3, e4, e5⟩ := idx_facts t
  funext j
  have hj0 : (j 0).val < 2000 := (j 0).isLt
  have hj1 : (j 1).val < 16 := (j 1).isLt
  -- the bias entry this element reads: row 0, the element's own column
  let k : S1x16.Idx := ix2 (0 : Fin 1) (⟨(j 1).val, hj1⟩ : Fin 16)
  show k1_pay1 (iblk1 V c 0 t) (iblk1 V c 1 t) (win1_2.xinj (grid1.coords t) j)
    = biasRelu (V c main_v43) (V c main_v44) (((cfg1.win 2).blk t).view.emb j)
  refine (pay_apply (iblk1 V c 0 t) (iblk1 V c 1 t) (win1_2.xinj (grid1.coords t) j) k rfl rfl).trans ?_
  refine Eq.trans ?_ (biasRelu_apply (V c main_v43) (V c main_v44) (((cfg1.win 2).blk t).view.emb j) k rfl ?_).symm
  · have h0 : iblk1 V c 0 t (win1_2.xinj (grid1.coords t) j) = V c main_v43 (((cfg1.win 2).blk t).view.emb j) := by
      show V c main_v43 (((cfg1.win 0).blk t).view.emb (win1_2.xinj (grid1.coords t) j)) = V c main_v43 (((cfg1.win 2).blk t).view.emb j)
      refine congrArg _ ?_
      funext a; apply Fin.ext
      match a with
      | ⟨0, _⟩ => show win1_0.index t (0 : Fin 2) * 2000 + 1 * (j 0).val = win1_2.index t (0 : Fin 2) * 2000 + 1 * (j 0).val; omega
      | ⟨1, _⟩ => show win1_0.index t (1 : Fin 2) * 16 + 1 * (j 1).val = win1_2.index t (1 : Fin 2) * 16 + 1 * (j 1).val; omega
    have h1 : iblk1 V c 1 t k = V c main_v44 k := by
      show V c main_v44 (((cfg1.win 1).blk t).view.emb k) = V c main_v44 k
      refine congrArg _ ?_
      funext a; apply Fin.ext
      match a with
      | ⟨0, _⟩ => show win1_1.index t (0 : Fin 2) * 1 + 1 * 0 = 0; omega
      | ⟨1, _⟩ => show win1_1.index t (1 : Fin 2) * 16 + 1 * (j 1).val = (j 1).val; omega
    rw [h0, h1]
  · show (j 1).val = win1_2.index t (1 : Fin 2) * 16 + 1 * (j 1).val
    omega

/-- An index of the array is in point t's block iff each coordinate is in the block's range on its axis. -/
theorem mem_blk (t : Fin cfg1.N) (i : S100000x16.Idx) :
    i ∈ ((cfg1.win 2).blk t).view.set ↔ ∀ a : Fin 2, win1_2.index t a * S2000x16.size a ≤ (i a).val ∧ (i a).val < win1_2.index t a * S2000x16.size a + S2000x16.size a := by
  show i ∈ ((View.whole main_v45).slice (win1_2.rect t)).set ↔ _
  rw [View.set_slice_whole, Rect.mem_set_unit]
  exact Iff.rfl

/-- Row r lies in the block of grid point r / 2000: the fifty blocks of 2000 rows tile the 100000 rows, and every
    block spans all 16 columns. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  let t : Fin cfg1.N := ⟨(i 0).val / 2000, by rw [hN]; omega⟩
  obtain ⟨e0, e1, e2, e3, e4, e5⟩ := idx_facts t
  have e4' : win1_2.index t (0 : Fin 2) = (i 0).val / 2000 := e4
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 16 ≤ (i 1).val ∧ (i 1).val < win1_2.index t (1 : Fin 2) * 16 + 16; omega

/-- The output array after the region is the whole-array function of the two arrays the region finds: the rows plus
    the broadcast bias row, clamped below at the broadcast zero. -/
theorem final (c : Dev nD) : (dat1 (F := Ideal) V c).arrAt 2 cfg1.N
    = maximumf (addf (V c main_v43 : (⟨Cert.ReferenceIdeal.S100000x16, .f32⟩ : BufTy).Contents (Elt Ideal))
        (broadcastInDim Cert.ReferenceIdeal.S100000x16 ![0, 1] Cert.ReferenceIdeal.Facts₀.bcast_S1x16_S100000x16_0_1 (V c main_v44 : (⟨Cert.ReferenceIdeal.S1x16, .f32⟩ : BufTy).Contents (Elt Ideal))))
      (broadcastInDim Cert.ReferenceIdeal.S100000x16 ![] Cert.ReferenceIdeal.Facts₀.bcast_S_S100000x16 (constant (F := Ideal) Cert.ReferenceIdeal.S_ .f32 0x00000000#32)) :=
  (dat1 (F := Ideal) V c).arrAt_eq_of_cover 2 (biasRelu (V c main_v43) (V c main_v44)) (fun t _ => flushed_eq V c t) cover

end Region

/-! ## The bias rows as the host lays them out

The kernel's program hands each bias vector to its region reshaped to one row; the specification broadcasts the
vector along a new leading axis of extent one. Both put bias q at entry (0, q). -/

/-- The 16 biases reshaped to one row of 16 are the biases broadcast along a new leading unit axis. -/
theorem bias16_eq (b : (⟨S16, .f32⟩ : BufTy).Contents (Elt Ideal)) :
    shapeCast S1x16 b Facts₀.shapeCasts_S16_S1x16
      = broadcastInDim Cert.ReferenceIdeal.S1x16 ![1] Cert.ReferenceIdeal.Facts₀.bcast_S16_S1x16_1 b := by
  funext i
  have hi0 : (i 0).val < 1 := (i 0).isLt
  have hi1 : (i 1).val < 16 := (i 1).isLt
  let k : S16.Idx := ix1 (⟨(i 1).val, hi1⟩ : Fin 16)
  rw [shapeCast_apply b Facts₀.shapeCasts_S16_S1x16 i k (by
      rw [Shape.rowMajor_val_one, Shape.rowMajor_val_two]
      show (i 1).val = (i 0).val * 16 + (i 1).val
      omega),
    broadcastInDim_apply _ Cert.ReferenceIdeal.Facts₀.bcast_S16_S1x16_1 b i k (fun a => match a with
      | ⟨0, _⟩ => by show (i 1).val = if (16 : Nat) = 1 then 0 else (i 1).val; rw [if_neg (by decide)])]

/-- The same for the second layer's 20 biases. -/
theorem bias20_eq (b : (⟨S20, .f32⟩ : BufTy).Contents (Elt Ideal)) :
    shapeCast S1x20 b Facts₀.shapeCasts_S20_S1x20
      = broadcastInDim Cert.ReferenceIdeal.S1x20 ![1] Cert.ReferenceIdeal.Facts₀.bcast_S20_S1x20_1 b := by
  funext i
  have hi0 : (i 0).val < 1 := (i 0).isLt
  have hi1 : (i 1).val < 20 := (i 1).isLt
  let k : S20.Idx := ix1 (⟨(i 1).val, hi1⟩ : Fin 20)
  rw [shapeCast_apply b Facts₀.shapeCasts_S20_S1x20 i k (by
      rw [Shape.rowMajor_val_one, Shape.rowMajor_val_two]
      show (i 1).val = (i 0).val * 20 + (i 1).val
      omega),
    broadcastInDim_apply _ Cert.ReferenceIdeal.Facts₀.bcast_S20_S1x20_1 b i k (fun a => match a with
      | ⟨0, _⟩ => by show (i 1).val = if (20 : Nat) = 1 then 0 else (i 1).val; rw [if_neg (by decide)])]

/-- What the host's reshape of the 16 biases leaves in its result buffer, whatever the buffers held before: the
    broadcast row. -/
theorem reshape16_result (W : Valuation τ sig (Elt Ideal)) :
    (StableHlo.reshape main_arg3 main_v44 rfl Facts₀.shapeCasts_S16_S1x16 : HloOp τ sig (Elt Ideal)).result W main_v44
      = broadcastInDim Cert.ReferenceIdeal.S1x16 ![1] Cert.ReferenceIdeal.Facts₀.bcast_S16_S1x16_1 (W main_arg3) :=
  ((StableHlo.reshape_result main_arg3 main_v44 rfl Facts₀.shapeCasts_S16_S1x16 ⟨by decide, rfl⟩ ⟨by decide, rfl⟩ W).trans rfl).trans
    (bias16_eq (W main_arg3))

/-- The same for the host's reshape of the 20 biases. -/
theorem reshape20_result (W : Valuation τ sig (Elt Ideal)) :
    (StableHlo.reshape main_arg5 main_v60 rfl Facts₀.shapeCasts_S20_S1x20 : HloOp τ sig (Elt Ideal)).result W main_v60
      = broadcastInDim Cert.ReferenceIdeal.S1x20 ![1] Cert.ReferenceIdeal.Facts₀.bcast_S20_S1x20_1 (W main_arg5) :=
  ((StableHlo.reshape_result main_arg5 main_v60 rfl Facts₀.shapeCasts_S20_S1x20 ⟨by decide, rfl⟩ ⟨by decide, rfl⟩ W).trans rfl).trans
    (bias20_eq (W main_arg5))

end Cert.KernelIdeal.BiasReluRegion

end
-- ==== Proof.Propagation.lean ====
/- The two propagation stretches of the kernel's host program, each read as one function of what it finds.

   Between the dense products and the bias stages the host program runs, twice, the same seventeen operations: a
   node number below zero is wrapped to count from the end, the rows of a node array are gathered at the edges'
   source nodes, every gathered row is scaled by its edge's weight, and the scaled rows are added up at the edges'
   target nodes, starting from zero; last, the layer's bias vector is laid out as one row. Composed, the first
   sixteen operations are one propagation step of the node array, spelled exactly as the specification spells it, so
   the two agree by unfolding; the last is the bias vector broadcast along a new leading axis of extent one. Both
   statements are about ANY contents of the buffers before the stretch: they read only the node array, the sources,
   the targets, the edge weights and the bias vector, and the stretch leaves those (and the later layer's
   parameters) as they were. -/
import proofs.«170878_j37941741093521_1_alg».proof.Proof.Gen.KernelIdeal.Frame
import proofs.«170878_j37941741093521_1_alg».proof.Proof.Stages
import proofs.«170878_j37941741093521_1_alg».proof.Proof.BiasReluRegion
import Idealize.ShloMosaic.Lib.StableHlo.Run

noncomputable section

namespace Cert.KernelIdeal.Propagation

open Cert.KernelIdeal Cert.KernelIdeal.Gen Idealize.ShloMosaic Idealize.ShloMosaic.TcCoe Idealize.SL.Sem
open Idealize.ShloMosaic.StableHlo

/-! ## The first propagation stretch: seventeen host operations between the first dense product and the bias stage -/

/-- From the node array in the first product's buffer, the stretch leaves one propagation step of it: the rows
    gathered at the wrapped source nodes, scaled by the edge weights, added up at the target nodes from zero. The
    sources, targets and edge weights are read from the buffers earlier operations left them in. -/
theorem stretch1_propagate (W : Valuation τ sig (Elt Ideal)) (e : (⟨Cert.ReferenceIdeal.S2x3200000, .i32⟩ : BufTy).Contents (Elt Ideal))
    (h3 : W (Proc.devRef .tc main_v3) = Cert.Gcn.sources (F := Ideal) e)
    (h6 : W (Proc.devRef .tc main_v6) = Cert.Gcn.targets (F := Ideal) e)
    (h29 : W (Proc.devRef .tc main_v29) = Cert.Gcn.edgeWeight (F := Ideal) e) :
    StableHlo.after (hostOps1 (F := Ideal)) W (Proc.devRef .tc main_v43) = Cert.Gcn.propagate16 (F := Ideal) (W (Proc.devRef .tc main_v30)) e := by
  after_results_simp
  rw [h3, h6, h29]
  unfold Cert.Gcn.propagate16 Cert.Gcn.wrapIndex
  rfl

/-- The stretch's last operation lays the 16 biases out as one row: the biases broadcast along a new leading unit
    axis, bias q at entry (0, q). -/
theorem stretch1_bias (W : Valuation τ sig (Elt Ideal)) :
    StableHlo.after (hostOps1 (F := Ideal)) W (Proc.devRef .tc main_v44)
      = broadcastInDim Cert.ReferenceIdeal.S1x16 ![1] Cert.ReferenceIdeal.Facts₀.bcast_S16_S1x16_1 (W (Proc.devRef .tc main_arg3)) := by
  after_results_simp
  exact Cert.KernelIdeal.BiasReluRegion.bias16_eq (W (Proc.devRef .tc main_arg3))

/-- No operation of the stretch writes the sources' buffer … -/
theorem stretch1_keeps_v3 (W : Valuation τ sig (Elt Ideal)) :
    StableHlo.after (hostOps1 (F := Ideal)) W (Proc.devRef .tc main_v3) = W (Proc.devRef .tc main_v3) := by
  after_results_simp
/-- … nor the targets' … -/
theorem stretch1_keeps_v6 (W : Valuation τ sig (Elt Ideal)) :
    StableHlo.after (hostOps1 (F := Ideal)) W (Proc.devRef .tc main_v6) = W (Proc.devRef .tc main_v6) := by
  after_results_simp
/-- … nor the edge weights' … -/
theorem stretch1_keeps_v29 (W : Valuation τ sig (Elt Ideal)) :
    StableHlo.after (hostOps1 (F := Ideal)) W (Proc.devRef .tc main_v29) = W (Proc.devRef .tc main_v29) := by
  after_results_simp
/-- … nor the second layer's weight matrix … -/
theorem stretch1_keeps_arg4 (W : Valuation τ sig (Elt Ideal)) :
    StableHlo.after (hostOps1 (F := Ideal)) W (Proc.devRef .tc main_arg4) = W (Proc.devRef .tc main_arg4) := by
  after_results_simp
/-- … nor its biases. -/
theorem stretch1_keeps_arg5 (W : Valuation τ sig (Elt Ideal)) :
    StableHlo.after (hostOps1 (F := Ideal)) W (Proc.devRef .tc main_arg5) = W (Proc.devRef .tc main_arg5) := by
  after_results_simp

/-! ## The second propagation stretch: the same seventeen operations on rows of 20 -/

/-- From the node array in the second product's buffer, the stretch leaves one propagation step of it. -/
theorem stretch3_propagate (W : Valuation τ sig (Elt Ideal)) (e : (⟨Cert.ReferenceIdeal.S2x3200000, .i32⟩ : BufTy).Contents (Elt Ideal))
    (h3 : W (Proc.devRef .tc main_v3) = Cert.Gcn.sources (F := Ideal) e)
    (h6 : W (Proc.devRef .tc main_v6) = Cert.Gcn.targets (F := Ideal) e)
    (h29 : W (Proc.devRef .tc main_v29) = Cert.Gcn.edgeWeight (F := Ideal) e) :
    StableHlo.after (hostOps3 (F := Ideal)) W (Proc.devRef .tc main_v59) = Cert.Gcn.propagate20 (F := Ideal) (W (Proc.devRef .tc main_v46)) e := by
  after_results_simp
  rw [h3, h6, h29]
  unfold Cert.Gcn.propagate20 Cert.Gcn.wrapIndex
  rfl

/-- The stretch's last operation lays the 20 biases out as one row. -/
theorem stretch3_bias (W : Valuation τ sig (Elt Ideal)) :
    StableHlo.after (hostOps3 (F := Ideal)) W (Proc.devRef .tc main_v60)
      = broadcastInDim Cert.ReferenceIdeal.S1x20 ![1] Cert.ReferenceIdeal.Facts₀.bcast_S20_S1x20_1 (W (Proc.devRef .tc main_arg5)) := by
  after_results_simp
  exact Cert.KernelIdeal.BiasReluRegion.bias20_eq (W (Proc.devRef .tc main_arg5))

end Cert.KernelIdeal.Propagation

end
-- ==== Proof.DenseRegion0.lean ====
/-
  The first dense product, region by region of rows.

  The node features X (100000 rows of 1000) are multiplied by the weights W (1000 by 16) in fifty bands of 2000
  rows: at band t the body loads rows 2000·t … 2000·t + 1999 of X and all of W, and stores the 2000-by-16 product
  of the two into band t of the output. On the extended reals the body's casts of both factors to a narrower float
  format change nothing and the accumulator starts at zero, so an entry (r, c) of a band's product is the sum over
  k of X[2000·t + r, k] · W[k, c] — the entry (2000·t + r, c) of the whole product X·W, whose sum runs over the
  same k. The bands tile the rows, hence the output array ends at X·W.
-/
import proofs.«170878_j37941741093521_1_alg».proof.Proof.Gen.KernelIdeal.Frame
import proofs.«170878_j37941741093521_1_alg».proof.ReferenceIdeal
import proofs.«170878_j37941741093521_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.DenseRegion0

open Cert.KernelIdeal Cert.KernelIdeal.Gen Cert.ReferenceIdeal.Gen
open Idealize.ShloMosaic Idealize.ShloMosaic.TcCoe Idealize.SL.Sem
open Idealize.ShloMosaic.Pipeline (Dat)

/-! ## The two products read at an index -/

/-- Row `r`, column `k` of the left factor's block, for the output entry `j = (r, c)` of the block. -/
abbrev leftAt (j : S2000x16.Idx) (k : Fin 1000) : S2000x1000.Idx := fun a => match a with
  | ⟨0, _⟩ => ⟨(j 0).val, (j 0).isLt⟩
  | ⟨1, _⟩ => ⟨k.val, k.isLt⟩
/-- Row `k`, column `c` of the right factor. -/
abbrev rightAt (j : S2000x16.Idx) (k : Fin 1000) : S1000x16.Idx := fun a => match a with
  | ⟨0, _⟩ => ⟨k.val, k.isLt⟩
  | ⟨1, _⟩ => ⟨(j 1).val, (j 1).isLt⟩
/-- The same two for the whole arrays, at the output entry `i = (r, c)`. -/
abbrev wholeLeftAt (i : Cert.ReferenceIdeal.S100000x16.Idx) (k : Fin 1000) : Cert.ReferenceIdeal.S100000x1000.Idx := fun a => match a with
  | ⟨0, _⟩ => ⟨(i 0).val, (i 0).isLt⟩
  | ⟨1, _⟩ => ⟨k.val, k.isLt⟩
abbrev wholeRightAt (i : Cert.ReferenceIdeal.S100000x16.Idx) (k : Fin 1000) : Cert.ReferenceIdeal.S1000x16.Idx := fun a => match a with
  | ⟨0, _⟩ => ⟨k.val, k.isLt⟩
  | ⟨1, _⟩ => ⟨(i 1).val, (i 1).isLt⟩

theorem blockDot_left_row (j : S2000x16.Idx) (q : dot_S2000x1000_S1000x16_S2000x16_1_0_0_1_n_n.contr.Idx) : (dot_S2000x1000_S1000x16_S2000x16_1_0_0_1_n_n.lhsIdx j q 0).val = (j 0).val := by
  unfold DotDims.lhsIdx
  rw [dif_neg (show ¬(0 : Fin S2000x1000.rank) ∈ dot_S2000x1000_S1000x16_S2000x16_1_0_0_1_n_n.lhsBatch by decide), dif_pos (show (0 : Fin S2000x1000.rank) ∈ dot_S2000x1000_S1000x16_S2000x16_1_0_0_1_n_n.lhsNonContracting by decide)]
  rfl
theorem blockDot_left_col (j : S2000x16.Idx) (q : dot_S2000x1000_S1000x16_S2000x16_1_0_0_1_n_n.contr.Idx) : (dot_S2000x1000_S1000x16_S2000x16_1_0_0_1_n_n.lhsIdx j q 1).val = (q ⟨0, by decide⟩).val :=
  dot_S2000x1000_S1000x16_S2000x16_1_0_0_1_n_n.lhsIdx_val_of_single rfl j q
theorem blockDot_right_row (j : S2000x16.Idx) (q : dot_S2000x1000_S1000x16_S2000x16_1_0_0_1_n_n.contr.Idx) : (dot_S2000x1000_S1000x16_S2000x16_1_0_0_1_n_n.rhsIdx j q 0).val = (q ⟨0, by decide⟩).val :=
  dot_S2000x1000_S1000x16_S2000x16_1_0_0_1_n_n.rhsIdx_val_of_single rfl j q
theorem blockDot_right_col (j : S2000x16.Idx) (q : dot_S2000x1000_S1000x16_S2000x16_1_0_0_1_n_n.contr.Idx) : (dot_S2000x1000_S1000x16_S2000x16_1_0_0_1_n_n.rhsIdx j q 1).val = (j 1).val := by
  unfold DotDims.rhsIdx
  rw [dif_neg (show ¬(1 : Fin S1000x16.rank) ∈ dot_S2000x1000_S1000x16_S2000x16_1_0_0_1_n_n.rhsBatch by decide), dif_pos (show (1 : Fin S1000x16.rank) ∈ dot_S2000x1000_S1000x16_S2000x16_1_0_0_1_n_n.rhsNonContracting by decide)]
  rfl

/-- An entry of the block product: the sum over the contracted axis of the left block's row against the right
    factor's column. The body's casts to the narrower float format are the identity on the extended reals and its
    accumulator starts at zero. -/
theorem blockProduct_apply (x0 : Vec Ideal S2000x1000 .f32) (x1 : Vec Ideal S1000x16 .f32) (j : S2000x16.Idx) :
    k0_pay1 (F := Ideal) x0 x1 j = ∑ k : Fin 1000, x0 (leftAt j k) * x1 (rightAt j k) := by
  unfold k0_pay1
  simp only [truncf, matmul]
  rw [Ideal.matmul_constant_zero_apply, ← Equiv.sum_comp (ValueIdx.contrEquiv1 dot_S2000x1000_S1000x16_S2000x16_1_0_0_1_n_n 1000 rfl rfl).symm]
  refine Finset.sum_congr rfl fun k _ => ?_
  have hk := ValueIdx.contrEquiv1_symm_val dot_S2000x1000_S1000x16_S2000x16_1_0_0_1_n_n 1000 rfl rfl k
  have el : dot_S2000x1000_S1000x16_S2000x16_1_0_0_1_n_n.lhsIdx j ((ValueIdx.contrEquiv1 dot_S2000x1000_S1000x16_S2000x16_1_0_0_1_n_n 1000 rfl rfl).symm k) = leftAt j k := funext fun a => Fin.ext (by
    match a with
    | ⟨0, _⟩ => exact blockDot_left_row _ _
    | ⟨1, _⟩ => exact (blockDot_left_col _ _).trans hk)
  have er : dot_S2000x1000_S1000x16_S2000x16_1_0_0_1_n_n.rhsIdx j ((ValueIdx.contrEquiv1 dot_S2000x1000_S1000x16_S2000x16_1_0_0_1_n_n 1000 rfl rfl).symm k) = rightAt j k := funext fun a => Fin.ext (by
    match a with
    | ⟨0, _⟩ => exact (blockDot_right_row _ _).trans hk
    | ⟨1, _⟩ => exact blockDot_right_col _ _)
  rw [el, er]
  rfl

theorem wholeDot_left_row (i : Cert.ReferenceIdeal.S100000x16.Idx) (q : Cert.ReferenceIdeal.dot_S100000x1000_S1000x16_S100000x16_1_0_0_1_n_n.contr.Idx) :
    (Cert.ReferenceIdeal.dot_S100000x1000_S1000x16_S100000x16_1_0_0_1_n_n.lhsIdx i q 0).val = (i 0).val := by
  unfold DotDims.lhsIdx
  rw [dif_neg (show ¬(0 : Fin Cert.ReferenceIdeal.S100000x1000.rank) ∈ Cert.ReferenceIdeal.dot_S100000x1000_S1000x16_S100000x16_1_0_0_1_n_n.lhsBatch by decide), dif_pos (show (0 : Fin Cert.ReferenceIdeal.S100000x1000.rank) ∈ Cert.ReferenceIdeal.dot_S100000x1000_S1000x16_S100000x16_1_0_0_1_n_n.lhsNonContracting by decide)]
  rfl
theorem wholeDot_left_col (i : Cert.ReferenceIdeal.S100000x16.Idx) (q : Cert.ReferenceIdeal.dot_S100000x1000_S1000x16_S100000x16_1_0_0_1_n_n.contr.Idx) :
    (Cert.ReferenceIdeal.dot_S100000x1000_S1000x16_S100000x16_1_0_0_1_n_n.lhsIdx i q 1).val = (q ⟨0, by decide⟩).val :=
  Cert.ReferenceIdeal.dot_S100000x1000_S1000x16_S100000x16_1_0_0_1_n_n.lhsIdx_val_of_single rfl i q
theorem wholeDot_right_row (i : Cert.ReferenceIdeal.S100000x16.Idx) (q : Cert.ReferenceIdeal.dot_S100000x1000_S1000x16_S100000x16_1_0_0_1_n_n.contr.Idx) :
    (Cert.ReferenceIdeal.dot_S100000x1000_S1000x16_S100000x16_1_0_0_1_n_n.rhsIdx i q 0).val = (q ⟨0, by decide⟩).val :=
  Cert.ReferenceIdeal.dot_S100000x1000_S1000x16_S100000x16_1_0_0_1_n_n.rhsIdx_val_of_single rfl i q
theorem wholeDot_right_col (i : Cert.ReferenceIdeal.S100000x16.Idx) (q : Cert.ReferenceIdeal.dot_S100000x1000_S1000x16_S100000x16_1_0_0_1_n_n.contr.Idx) :
    (Cert.ReferenceIdeal.dot_S100000x1000_S1000x16_S100000x16_1_0_0_1_n_n.rhsIdx i q 1).val = (i 1).val := by
  unfold DotDims.rhsIdx
  rw [dif_neg (show ¬(1 : Fin Cert.ReferenceIdeal.S1000x16.rank) ∈ Cert.ReferenceIdeal.dot_S100000x1000_S1000x16_S100000x16_1_0_0_1_n_n.rhsBatch by decide), dif_pos (show (1 : Fin Cert.ReferenceIdeal.S1000x16.rank) ∈ Cert.ReferenceIdeal.dot_S100000x1000_S1000x16_S100000x16_1_0_0_1_n_n.rhsNonContracting by decide)]
  rfl

/-- An entry of the whole product as the host computes it: the same sum over the contracted axis. -/
theorem wholeProduct_apply (X : FVec Ideal Cert.ReferenceIdeal.S100000x1000 .f32) (W : FVec Ideal Cert.ReferenceIdeal.S1000x16 .f32)
    (i : Cert.ReferenceIdeal.S100000x16.Idx) :
    Host.dotGeneral (F := Ideal) (φ₁ := .f32) (φ₂ := .f32) Cert.ReferenceIdeal.dot_S100000x1000_S1000x16_S100000x16_1_0_0_1_n_n none X W i = ∑ k : Fin 1000, X (wholeLeftAt i k) * W (wholeRightAt i k) := by
  simp only [Host.dotGeneral]
  rw [Ideal.dotGeneral_apply, ← Equiv.sum_comp (ValueIdx.contrEquiv1 Cert.ReferenceIdeal.dot_S100000x1000_S1000x16_S100000x16_1_0_0_1_n_n 1000 rfl rfl).symm]
  refine Finset.sum_congr rfl fun k _ => ?_
  have hk := ValueIdx.contrEquiv1_symm_val Cert.ReferenceIdeal.dot_S100000x1000_S1000x16_S100000x16_1_0_0_1_n_n 1000 rfl rfl k
  have el : Cert.ReferenceIdeal.dot_S100000x1000_S1000x16_S100000x16_1_0_0_1_n_n.lhsIdx i ((ValueIdx.contrEquiv1 Cert.ReferenceIdeal.dot_S100000x1000_S1000x16_S100000x16_1_0_0_1_n_n 1000 rfl rfl).symm k) = wholeLeftAt i k := funext fun a => Fin.ext (by
    match a with
    | ⟨0, _⟩ => exact wholeDot_left_row _ _
    | ⟨1, _⟩ => exact (wholeDot_left_col _ _).trans hk)
  have er : Cert.ReferenceIdeal.dot_S100000x1000_S1000x16_S100000x16_1_0_0_1_n_n.rhsIdx i ((ValueIdx.contrEquiv1 Cert.ReferenceIdeal.dot_S100000x1000_S1000x16_S100000x16_1_0_0_1_n_n 1000 rfl rfl).symm k) = wholeRightAt i k := funext fun a => Fin.ext (by
    match a with
    | ⟨0, _⟩ => exact (wholeDot_right_row _ _).trans hk
    | ⟨1, _⟩ => exact wholeDot_right_col _ _)
  rw [el, er]

/-! ## From the row blocks to the whole product -/

theorem origin_eq : (![0, 0] : Fin 2 → Nat) = fun _ => 0 := funext fun a => by fin_cases a <;> rfl

/-- The printed index maps, decided once over the grid: at point `t` the left factor's block and the output's block are
    the same band of rows, the left block spans every column, the right factor is fetched whole, and the band's number
    is below the number of bands. -/
theorem band_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 50 :=
  (by decide +kernel : ∀ t : Fin grid0.N, _)

/-- Every band of rows is some point's. -/
theorem band_onto : ∀ q : Fin 50, ∃ t : Fin cfg0.N, win0_2.index t = ![q.val, 0] :=
  (by decide +kernel : ∀ q : Fin 50, ∃ t : Fin grid0.N, win0_2.index t = ![q.val, 0])

variable (V : (c : Dev nD) → (b : Ref sig .tc) → Buf (Elt Ideal) ((c : Thread nD τ).loc b))

/-- The whole product of the two arrays as the region finds them. -/
abbrev wholeProduct (c : Dev nD) : Buf (Elt Ideal) ((c : Thread nD τ).loc (Pipeline.arrRef spec0 2)) :=
  Host.dotGeneral (F := Ideal) (φ₁ := .f32) (φ₂ := .f32) Cert.ReferenceIdeal.dot_S100000x1000_S1000x16_S100000x16_1_0_0_1_n_n none (V c main_arg0 : FVec Ideal Cert.ReferenceIdeal.S100000x1000 .f32) (V c main_arg2 : FVec Ideal Cert.ReferenceIdeal.S1000x16 .f32)

/-- WHAT POINT `t` WRITES BACK is band `t` of the whole product: an entry of the block product reads row `r` of the left
    block, which is row `band · 2000 + r` of the left array, against the same column of the right factor. -/
theorem writtenBack_eq (c : Dev nD) (t : Fin cfg0.N) :
    (dat0 (F := Ideal) V c).flushed 2 t = ((cfg0.win 2).blk t).view.read (Elt Ideal) (wholeProduct V c) := by
  show (cfg0.win 2).cut (grid0.coords t) ((dat0 (F := Ideal) V c).after 2 t) = _
  rw [after0_2]
  unfold out0_2
  rw [View.canon_unit_zero origin_eq]
  simp only [View.ld_unit_zero (S := S2000x1000) origin_eq, View.ld_unit_zero (S := S1000x16) origin_eq]
  obtain ⟨e0, e1, e2, e3, e4, e5⟩ := band_facts t
  funext j
  refine (blockProduct_apply _ _ j).trans ?_
  show _ = Host.dotGeneral (F := Ideal) (φ₁ := .f32) (φ₂ := .f32) Cert.ReferenceIdeal.dot_S100000x1000_S1000x16_S100000x16_1_0_0_1_n_n none (V c main_arg0 : FVec Ideal Cert.ReferenceIdeal.S100000x1000 .f32) (V c main_arg2 : FVec Ideal Cert.ReferenceIdeal.S1000x16 .f32) (((cfg0.win 2).blk t).view.emb j)
  refine Eq.trans ?_ (wholeProduct_apply (V c main_arg0 : FVec Ideal Cert.ReferenceIdeal.S100000x1000 .f32) (V c main_arg2 : FVec Ideal Cert.ReferenceIdeal.S1000x16 .f32) (((cfg0.win 2).blk t).view.emb j)).symm
  refine Finset.sum_congr rfl fun k _ => ?_
  have hl : ((cfg0.win 0).blk t).view.emb (leftAt j k) = wholeLeftAt (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 1000 + 1 * k.val = k.val; omega
  have hr : ((cfg0.win 1).blk t).view.emb (rightAt j k) = wholeRightAt (((cfg0.win 2).blk t).view.emb j) k := by
    funext a; apply Fin.ext
    match a with
    | ⟨0, _⟩ => show win0_1.index t (0 : Fin 2) * 1000 + 1 * k.val = k.val; omega
    | ⟨1, _⟩ => show win0_1.index t (1 : Fin 2) * 16 + 1 * (j 1).val = win0_2.index t (1 : Fin 2) * 16 + 1 * (j 1).val; omega
  rw [← hl, ← hr]
  rfl

/-- An index of the output array is in point `t`'s block iff each coordinate is in the block's range on its axis. -/
theorem mem_band (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole (Pipeline.arrRef spec0 2)).slice (win0_2.rect t)).set ↔ _
  rw [View.set_slice_whole, Rect.mem_set_unit]
  exact Iff.rfl

/-- Row `r` lies in band `r / 2000`: the bands cover the output array. -/
theorem rows_covered (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ := band_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_band]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- THE OUTPUT ARRAY after the region: the whole product of the two arrays the region found. -/
theorem final (c : Dev nD) : (dat0 (F := Ideal) V c).arrAt 2 cfg0.N = wholeProduct V c :=
  (dat0 (F := Ideal) V c).arrAt_eq_of_cover 2 (wholeProduct V c) (fun t _ => writtenBack_eq V c t) (rows_covered)

end Cert.KernelIdeal.DenseRegion0

end
-- ==== Proof.DenseRegion2.lean ====
/-
  The second dense product, region by region of rows.

  The hidden layer H (100000 rows of 16) is multiplied by the weights W (16 by 20) in fifty bands of 2000 rows:
  at band t the body loads rows 2000·t … 2000·t + 1999 of H and all of W, and stores the 2000-by-20 product of the
  two into band t of the output. On the extended reals the body's casts of both factors to a narrower float format
  change nothing and the accumulator starts at zero, so an entry (r, c) of a band's product is the sum over k of
  H[2000·t + r, k] · W[k, c] — the entry (2000·t + r, c) of the whole product H·W, whose sum runs over the same k.
  The bands tile the rows, hence the output array ends at H·W.
-/
import proofs.«170878_j37941741093521_1_alg».proof.Proof.Gen.KernelIdeal.Frame
import proofs.«170878_j37941741093521_1_alg».proof.ReferenceIdeal
import proofs.«170878_j37941741093521_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.DenseRegion2

open Cert.KernelIdeal Cert.KernelIdeal.Gen Cert.ReferenceIdeal.Gen
open Idealize.ShloMosaic Idealize.ShloMosaic.TcCoe Idealize.SL.Sem
open Idealize.ShloMosaic.Pipeline (Dat)

/-! ## The two products read at an index -/

/-- Row `r`, column `k` of the left factor's block, for the output entry `j = (r, c)` of the block. -/
abbrev leftAt (j : S2000x20.Idx) (k : Fin 16) : S2000x16.Idx := fun a => match a with
  | ⟨0, _⟩ => ⟨(j 0).val, (j 0).isLt⟩
  | ⟨1, _⟩ => ⟨k.val, k.isLt⟩
/-- Row `k`, column `c` of the right factor. -/
abbrev rightAt (j : S2000x20.Idx) (k : Fin 16) : S16x20.Idx := fun a => match a with
  | ⟨0, _⟩ => ⟨k.val, k.isLt⟩
  | ⟨1, _⟩ => ⟨(j 1).val, (j 1).isLt⟩
/-- The same two for the whole arrays, at the output entry `i = (r, c)`. -/
abbrev wholeLeftAt (i : Cert.ReferenceIdeal.S100000x20.Idx) (k : Fin 16) : Cert.ReferenceIdeal.S100000x16.Idx := fun a => match a with
  | ⟨0, _⟩ => ⟨(i 0).val, (i 0).isLt⟩
  | ⟨1, _⟩ => ⟨k.val, k.isLt⟩
abbrev wholeRightAt (i : Cert.ReferenceIdeal.S100000x20.Idx) (k : Fin 16) : Cert.ReferenceIdeal.S16x20.Idx := fun a => match a with
  | ⟨0, _⟩ => ⟨k.val, k.isLt⟩
  | ⟨1, _⟩ => ⟨(i 1).val, (i 1).isLt⟩

theorem blockDot_left_row (j : S2000x20.Idx) (q : dot_S2000x16_S16x20_S2000x20_1_0_0_1_n_n.contr.Idx) : (dot_S2000x16_S16x20_S2000x20_1_0_0_1_n_n.lhsIdx j q 0).val = (j 0).val := by
  unfold DotDims.lhsIdx
  rw [dif_neg (show ¬(0 : Fin S2000x16.rank) ∈ dot_S2000x16_S16x20_S2000x20_1_0_0_1_n_n.lhsBatch by decide), dif_pos (show (0 : Fin S2000x16.rank) ∈ dot_S2000x16_S16x20_S2000x20_1_0_0_1_n_n.lhsNonContracting by decide)]
  rfl
theorem blockDot_left_col (j : S2000x20.Idx) (q : dot_S2000x16_S16x20_S2000x20_1_0_0_1_n_n.contr.Idx) : (dot_S2000x16_S16x20_S2000x20_1_0_0_1_n_n.lhsIdx j q 1).val = (q ⟨0, by decide⟩).val :=
  dot_S2000x16_S16x20_S2000x20_1_0_0_1_n_n.lhsIdx_val_of_single rfl j q
theorem blockDot_right_row (j : S2000x20.Idx) (q : dot_S2000x16_S16x20_S2000x20_1_0_0_1_n_n.contr.Idx) : (dot_S2000x16_S16x20_S2000x20_1_0_0_1_n_n.rhsIdx j q 0).val = (q ⟨0, by decide⟩).val :=
  dot_S2000x16_S16x20_S2000x20_1_0_0_1_n_n.rhsIdx_val_of_single rfl j q
theorem blockDot_right_col (j : S2000x20.Idx) (q : dot_S2000x16_S16x20_S2000x20_1_0_0_1_n_n.contr.Idx) : (dot_S2000x16_S16x20_S2000x20_1_0_0_1_n_n.rhsIdx j q 1).val = (j 1).val := by
  unfold DotDims.rhsIdx
  rw [dif_neg (show ¬(1 : Fin S16x20.rank) ∈ dot_S2000x16_S16x20_S2000x20_1_0_0_1_n_n.rhsBatch by decide), dif_pos (show (1 : Fin S16x20.rank) ∈ dot_S2000x16_S16x20_S2000x20_1_0_0_1_n_n.rhsNonContracting by decide)]
  rfl

/-- An entry of the block product: the sum over the contracted axis of the left block's row against the right
    factor's column. The body's casts to the narrower float format are the identity on the extended reals and its
    accumulator starts at zero. -/
theorem blockProduct_apply (x0 : Vec Ideal S2000x16 .f32) (x1 : Vec Ideal S16x20 .f32) (j : S2000x20.Idx) :
    k2_pay1 (F := Ideal) x0 x1 j = ∑ k : Fin 16, x0 (leftAt j k) * x1 (rightAt j k) := by
  unfold k2_pay1
  simp only [truncf, matmul, Idealize.ShloMosaic.shapeCast_self]
  rw [Ideal.matmul_constant_zero_apply, ← Equiv.sum_comp (ValueIdx.contrEquiv1 dot_S2000x16_S16x20_S2000x20_1_0_0_1_n_n 16 rfl rfl).symm]
  refine Finset.sum_congr rfl fun k _ => ?_
  have hk := ValueIdx.contrEquiv1_symm_val dot_S2000x16_S16x20_S2000x20_1_0_0_1_n_n 16 rfl rfl k
  have el : dot_S2000x16_S16x20_S2000x20_1_0_0_1_n_n.lhsIdx j ((ValueIdx.contrEquiv1 dot_S2000x16_S16x20_S2000x20_1_0_0_1_n_n 16 rfl rfl).symm k) = leftAt j k := funext fun a => Fin.ext (by
    match a with
    | ⟨0, _⟩ => exact blockDot_left_row _ _
    | ⟨1, _⟩ => exact (blockDot_left_col _ _).trans hk)
  have er : dot_S2000x16_S16x20_S2000x20_1_0_0_1_n_n.rhsIdx j ((ValueIdx.contrEquiv1 dot_S2000x16_S16x20_S2000x20_1_0_0_1_n_n 16 rfl rfl).symm k) = rightAt j k := funext fun a => Fin.ext (by
    match a with
    | ⟨0, _⟩ => exact (blockDot_right_row _ _).trans hk
    | ⟨1, _⟩ => exact blockDot_right_col _ _)
  rw [el, er]
  rfl

theorem wholeDot_left_row (i : Cert.ReferenceIdeal.S100000x20.Idx) (q : Cert.ReferenceIdeal.dot_S100000x16_S16x20_S100000x20_1_0_0_1_n_n.contr.Idx) :
    (Cert.ReferenceIdeal.dot_S100000x16_S16x20_S100000x20_1_0_0_1_n_n.lhsIdx i q 0).val = (i 0).val := by
  unfold DotDims.lhsIdx
  rw [dif_neg (show ¬(0 : Fin Cert.ReferenceIdeal.S100000x16.rank) ∈ Cert.ReferenceIdeal.dot_S100000x16_S16x20_S100000x20_1_0_0_1_n_n.lhsBatch by decide), dif_pos (show (0 : Fin Cert.ReferenceIdeal.S100000x16.rank) ∈ Cert.ReferenceIdeal.dot_S100000x16_S16x20_S100000x20_1_0_0_1_n_n.lhsNonContracting by decide)]
  rfl
theorem wholeDot_left_col (i : Cert.ReferenceIdeal.S100000x20.Idx) (q : Cert.ReferenceIdeal.dot_S100000x16_S16x20_S100000x20_1_0_0_1_n_n.contr.Idx) :
    (Cert.ReferenceIdeal.dot_S100000x16_S16x20_S100000x20_1_0_0_1_n_n.lhsIdx i q 1).val = (q ⟨0, by decide⟩).val :=
  Cert.ReferenceIdeal.dot_S100000x16_S16x20_S100000x20_1_0_0_1_n_n.lhsIdx_val_of_single rfl i q
theorem wholeDot_right_row (i : Cert.ReferenceIdeal.S100000x20.Idx) (q : Cert.ReferenceIdeal.dot_S100000x16_S16x20_S100000x20_1_0_0_1_n_n.contr.Idx) :
    (Cert.ReferenceIdeal.dot_S100000x16_S16x20_S100000x20_1_0_0_1_n_n.rhsIdx i q 0).val = (q ⟨0, by decide⟩).val :=
  Cert.ReferenceIdeal.dot_S100000x16_S16x20_S100000x20_1_0_0_1_n_n.rhsIdx_val_of_single rfl i q
theorem wholeDot_right_col (i : Cert.ReferenceIdeal.S100000x20.Idx) (q : Cert.ReferenceIdeal.dot_S100000x16_S16x20_S100000x20_1_0_0_1_n_n.contr.Idx) :
    (Cert.ReferenceIdeal.dot_S100000x16_S16x20_S100000x20_1_0_0_1_n_n.rhsIdx i q 1).val = (i 1).val := by
  unfold DotDims.rhsIdx
  rw [dif_neg (show ¬(1 : Fin Cert.ReferenceIdeal.S16x20.rank) ∈ Cert.ReferenceIdeal.dot_S100000x16_S16x20_S100000x20_1_0_0_1_n_n.rhsBatch by decide), dif_pos (show (1 : Fin Cert.ReferenceIdeal.S16x20.rank) ∈ Cert.ReferenceIdeal.dot_S100000x16_S16x20_S100000x20_1_0_0_1_n_n.rhsNonContracting by decide)]
  rfl

/-- An entry of the whole product as the host computes it: the same sum over the contracted axis. -/
theorem wholeProduct_apply (X : FVec Ideal Cert.ReferenceIdeal.S100000x16 .f32) (W : FVec Ideal Cert.ReferenceIdeal.S16x20 .f32)
    (i : Cert.ReferenceIdeal.S100000x20.Idx) :
    Host.dotGeneral (F := Ideal) (φ₁ := .f32) (φ₂ := .f32) Cert.ReferenceIdeal.dot_S100000x16_S16x20_S100000x20_1_0_0_1_n_n none X W i = ∑ k : Fin 16, X (wholeLeftAt i k) * W (wholeRightAt i k) := by
  simp only [Host.dotGeneral]
  rw [Ideal.dotGeneral_apply, ← Equiv.sum_comp (ValueIdx.contrEquiv1 Cert.ReferenceIdeal.dot_S100000x16_S16x20_S100000x20_1_0_0_1_n_n 16 rfl rfl).symm]
  refine Finset.sum_congr rfl fun k _ => ?_
  have hk := ValueIdx.contrEquiv1_symm_val Cert.ReferenceIdeal.dot_S100000x16_S16x20_S100000x20_1_0_0_1_n_n 16 rfl rfl k
  have el : Cert.ReferenceIdeal.dot_S100000x16_S16x20_S100000x20_1_0_0_1_n_n.lhsIdx i ((ValueIdx.contrEquiv1 Cert.ReferenceIdeal.dot_S100000x16_S16x20_S100000x20_1_0_0_1_n_n 16 rfl rfl).symm k) = wholeLeftAt i k := funext fun a => Fin.ext (by
    match a with
    | ⟨0, _⟩ => exact wholeDot_left_row _ _
    | ⟨1, _⟩ => exact (wholeDot_left_col _ _).trans hk)
  have er : Cert.ReferenceIdeal.dot_S100000x16_S16x20_S100000x20_1_0_0_1_n_n.rhsIdx i ((ValueIdx.contrEquiv1 Cert.ReferenceIdeal.dot_S100000x16_S16x20_S100000x20_1_0_0_1_n_n 16 rfl rfl).symm k) = wholeRightAt i k := funext fun a => Fin.ext (by
    match a with
    | ⟨0, _⟩ => exact (wholeDot_right_row _ _).trans hk
    | ⟨1, _⟩ => exact wholeDot_right_col _ _)
  rw [el, er]

/-! ## From the row blocks to the whole product -/

theorem origin_eq : (![0, 0] : Fin 2 → Nat) = fun _ => 0 := funext fun a => by fin_cases a <;> rfl

/-- The printed index maps, decided once over the grid: at point `t` the left factor's block and the output's block are
    the same band of rows, the left block spans every column, the right factor is fetched whole, and the band's number
    is below the number of bands. -/
theorem band_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) < 50 :=
  (by decide +kernel : ∀ t : Fin grid2.N, _)

/-- Every band of rows is some point's. -/
theorem band_onto : ∀ q : Fin 50, ∃ t : Fin cfg2.N, win2_2.index t = ![q.val, 0] :=
  (by decide +kernel : ∀ q : Fin 50, ∃ t : Fin grid2.N, win2_2.index t = ![q.val, 0])

variable (V : (c : Dev nD) → (b : Ref sig .tc) → Buf (Elt Ideal) ((c : Thread nD τ).loc b))

/-- The whole product of the two arrays as the region finds them. -/
abbrev wholeProduct (c : Dev nD) : Buf (Elt Ideal) ((c : Thread nD τ).loc (Pipeline.arrRef spec2 2)) :=
  Host.dotGeneral (F := Ideal) (φ₁ := .f32) (φ₂ := .f32) Cert.ReferenceIdeal.dot_S100000x16_S16x20_S100000x20_1_0_0_1_n_n none (V c main_v45 : FVec Ideal Cert.ReferenceIdeal.S100000x16 .f32) (V c main_arg4 : FVec Ideal Cert.ReferenceIdeal.S16x20 .f32)

/-- WHAT POINT `t` WRITES BACK is band `t` of the whole product: an entry of the block product reads row `r` of the left
    block, which is row `band · 2000 + r` of the left array, against the same column of the right factor. -/
theorem writtenBack_eq (c : Dev nD) (t : Fin cfg2.N) :
    (dat2 (F := Ideal) V c).flushed 2 t = ((cfg2.win 2).blk t).view.read (Elt Ideal) (wholeProduct V c) := by
  show (cfg2.win 2).cut (grid2.coords t) ((dat2 (F := Ideal) V c).after 2 t) = _
  rw [after2_2]
  unfold out2_2
  rw [View.canon_unit_zero origin_eq]
  simp only [View.ld_unit_zero (S := S2000x16) origin_eq, View.ld_unit_zero (S := S16x20) origin_eq]
  obtain ⟨e0, e1, e2, e3, e4, e5⟩ := band_facts t
  funext j
  refine (blockProduct_apply _ _ j).trans ?_
  show _ = Host.dotGeneral (F := Ideal) (φ₁ := .f32) (φ₂ := .f32) Cert.ReferenceIdeal.dot_S100000x16_S16x20_S100000x20_1_0_0_1_n_n none (V c main_v45 : FVec Ideal Cert.ReferenceIdeal.S100000x16 .f32) (V c main_arg4 : FVec Ideal Cert.ReferenceIdeal.S16x20 .f32) (((cfg2.win 2).blk t).view.emb j)
  refine Eq.trans ?_ (wholeProduct_apply (V c main_v45 : FVec Ideal Cert.ReferenceIdeal.S100000x16 .f32) (V c main_arg4 : FVec Ideal Cert.ReferenceIdeal.S16x20 .f32) (((cfg2.win 2).blk t).view.emb j)).symm
  refine Finset.sum_congr rfl fun k _ => ?_
  have hl : ((cfg2.win 0).blk t).view.emb (leftAt j k) = wholeLeftAt (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 16 + 1 * k.val = k.val; omega
  have hr : ((cfg2.win 1).blk t).view.emb (rightAt j k) = wholeRightAt (((cfg2.win 2).blk t).view.emb j) k := by
    funext a; apply Fin.ext
    match a with
    | ⟨0, _⟩ => show win2_1.index t (0 : Fin 2) * 16 + 1 * k.val = k.val; omega
    | ⟨1, _⟩ => show win2_1.index t (1 : Fin 2) * 20 + 1 * (j 1).val = win2_2.index t (1 : Fin 2) * 20 + 1 * (j 1).val; omega
  rw [← hl, ← hr]
  rfl

/-- An index of the output array is in point `t`'s block iff each coordinate is in the block's range on its axis. -/
theorem mem_band (t : Fin cfg2.N) (i : S100000x20.Idx) :
    i ∈ ((cfg2.win 2).blk t).view.set ↔ ∀ a : Fin 2, win2_2.index t a * S2000x20.size a ≤ (i a).val ∧ (i a).val < win2_2.index t a * S2000x20.size a + S2000x20.size a := by
  show i ∈ ((View.whole (Pipeline.arrRef spec2 2)).slice (win2_2.rect t)).set ↔ _
  rw [View.set_slice_whole, Rect.mem_set_unit]
  exact Iff.rfl

/-- Row `r` lies in band `r / 2000`: the bands cover the output array. -/
theorem rows_covered (i : S100000x20.Idx) : ∃ t : Fin cfg2.N, (cfg2.win 2).flush t = true ∧ i ∈ ((cfg2.win 2).blk t).view.set := by
  have hi0 : (i 0).val < 100000 := (i 0).isLt
  have hi1 : (i 1).val < 20 := (i 1).isLt
  obtain ⟨t, ht⟩ := band_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_band]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 20 ≤ (i 1).val ∧ (i 1).val < win2_2.index t (1 : Fin 2) * 20 + 20; omega

/-- THE OUTPUT ARRAY after the region: the whole product of the two arrays the region found. -/
theorem final (c : Dev nD) : (dat2 (F := Ideal) V c).arrAt 2 cfg2.N = wholeProduct V c :=
  (dat2 (F := Ideal) V c).arrAt_eq_of_cover 2 (wholeProduct V c) (fun t _ => writtenBack_eq V c t) (rows_covered)

end Cert.KernelIdeal.DenseRegion2

end
-- ==== Proof.SoftmaxRegion.lean ====
/-
  The fourth region of the kernel's program computes, block by block, a row-wise log-softmax of biased scores:
  for a 100000 × 20 array of scores `A` and a bias row `B` of 20 entries, with `z r k = A r k + B k`,

      out r q = (z r q − M r) − log (∑ k, exp (z r k − M r)),      M r = max over k of z r k,

  the maximum folded from minus infinity and the sum taken over the 20 classes of row `r`. The region walks 50
  grid points; point `t` holds rows `2000 t … 2000 t + 1999` of `A` and the whole of `B`, and writes back the
  same rows of the output. Every operation of the body acts within a row (a lane maximum, a lane sum, and pointwise
  operations on their broadcasts), so an output entry depends only on its own row of `A` and on `B`.

  This module states that value against the reference program's own `log_softmax`. `rowLogSoftmax f q` is the
  formula above for one row `f : Fin 20 → EReal`. The kernel's payload at `(p, q)` is `rowLogSoftmax` of row `p` of
  the staged block plus the bias row (`pay_apply`); the reference's `log_softmax` of an array at `(r, q)` is
  `rowLogSoftmax` of row `r` (`refLogSoftmax_apply`) — the reference takes the maximum with minus infinity once
  more and adds its sum to a zero initial value, neither of which changes the value on the extended reals, and both
  reductions are over the same 20 coordinates. No law that needs finiteness is used: the two sides are the same
  expression of the same entries. Then point `t`'s write-back is block `t` of the reference's function of the
  whole arrays (`flushed_eq`), the fifty blocks tile the 100000 rows (`cover`), and the output array after the
  region is the reference's `log_softmax` of the biased array (`final`).
-/
import proofs.«170878_j37941741093521_1_alg».proof.Proof.Gen.KernelIdeal.Frame
import proofs.«170878_j37941741093521_1_alg».proof.Proof.Gen.ReferenceIdeal
import proofs.«170878_j37941741093521_1_alg».proof.Proof.Stages
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.SoftmaxRegion

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-! ## One row's log-softmax on the extended reals -/

/-- The extended real that f32's word for minus infinity denotes; it is never evaluated: both programs
    start their row maximum from the same word. -/
abbrev negInf : EReal := Ideal.ofBits .f32 0xFF800000#32

/-- The maximum of a row of twenty entries, folded from `negInf`. -/
def rowMax (f : Fin 20 → EReal) : EReal := (Finset.univ : Finset (Fin 20)).fold max negInf f

/-- Entry `q` of the log-softmax of a row `f`: with `M` the row's maximum,
    `(f q - M) - log (∑ k, exp (f k - M))`. -/
def rowLogSoftmax (f : Fin 20 → EReal) (q : Fin 20) : EReal :=
  (f q - rowMax f) - Ideal.log (∑ k : Fin 20, Ideal.exp (f k - rowMax f))

/-- Folding `max` from `b` gives something at least `b`, so a further `max b` changes nothing. -/
theorem max_fold_max (b : EReal) (f : Fin 20 → EReal) :
    max b ((Finset.univ : Finset (Fin 20)).fold max b f) = (Finset.univ : Finset (Fin 20)).fold max b f :=
  max_eq_right ((Finset.le_fold_max b).mpr (Or.inl le_rfl))

/-! ## The kernel's block operations read at an index -/

/-- A vector of 2000 row values, reshaped to a column and broadcast along the 20 lanes, reads at `(p, q)`
    the value of row `p`. -/
theorem column_apply (v : FVec Ideal S2000 .f32) (p : Fin 2000) (q : Fin 20) :
    broadcastTo S2000x20 (shapeCast S2000x1 v shapeCasts_S2000_S2000x1) broadcasts_S2000x1_S2000x20 (ix2 p q)
      = v (ix1 p) := by
  refine (broadcastTo_apply _ broadcasts_S2000x1_S2000x20 (ix2 p q) (ix2 p (0 : Fin 1)) fun a => ?_).trans ?_
  · match a with
    | ⟨0, _⟩ => rfl
    | ⟨1, _⟩ => rfl
  · refine shapeCast_apply v shapeCasts_S2000_S2000x1 (ix2 p (0 : Fin 1)) (ix1 p) ?_
    rw [Shape.rowMajor_val_one, Shape.rowMajor_val_two]
    show p.val = p.val * 1 + 0
    omega

/-- The lane maximum of a block, at row `p`: the row's maximum. -/
theorem laneMax_apply (z : FVec Ideal S2000x20 .f32) (p : Fin 2000) :
    multiReduction .maximumf [1] S2000 z 0xFF800000#32 reduces_S2000x20_S2000 (.inl rfl) rfl (ix1 p)
      = rowMax fun k => z (ix2 p k) := by
  refine (Ideal.multiReduction_maximumf_single z 0xFF800000#32 reduces_S2000x20_S2000 (.inl rfl) rfl (ix1 p)).trans ?_
  show (Finset.univ : Finset (Fin 20)).fold max negInf (fun k => z (reduces_S2000x20_S2000.lift (ix1 p) k)) = _
  unfold rowMax
  refine congrArg (fun g => (Finset.univ : Finset (Fin 20)).fold max negInf g) (funext fun k => congrArg z ?_)
  funext a
  apply Fin.ext
  match a with
  | ⟨0, _⟩ => rfl
  | ⟨1, _⟩ => rfl

/-- The lane sum of a block, at row `p`: the row's sum. -/
theorem laneSum_apply (z : FVec Ideal S2000x20 .f32) (p : Fin 2000) :
    multiReduction .add [1] S2000 z 0x00000000#32 reduces_S2000x20_S2000 (.inl rfl) rfl (ix1 p)
      = ∑ k : Fin 20, z (ix2 p k) := by
  refine (Ideal.multiReduction_add_single z 0x00000000#32 reduces_S2000x20_S2000 (.inl rfl) rfl (ix1 p)).trans ?_
  show ∑ k : Fin 20, z (reduces_S2000x20_S2000.lift (ix1 p) k) = _
  refine Finset.sum_congr rfl fun k _ => congrArg z ?_
  funext a
  apply Fin.ext
  match a with
  | ⟨0, _⟩ => rfl
  | ⟨1, _⟩ => rfl

/-- The same through an elementwise logarithm of the column. -/
theorem column_log_apply (v : FVec Ideal S2000 .f32) (p : Fin 2000) (q : Fin 20) :
    broadcastTo S2000x20 (log (shapeCast S2000x1 v shapeCasts_S2000_S2000x1)) broadcasts_S2000x1_S2000x20 (ix2 p q)
      = Ideal.log (v (ix1 p)) := by
  refine (broadcastTo_apply _ broadcasts_S2000x1_S2000x20 (ix2 p q) (ix2 p (0 : Fin 1)) fun a => ?_).trans ?_
  · match a with
    | ⟨0, _⟩ => rfl
    | ⟨1, _⟩ => rfl
  · show Ideal.log (shapeCast S2000x1 v shapeCasts_S2000_S2000x1 (ix2 p (0 : Fin 1))) = _
    refine congrArg Ideal.log (shapeCast_apply v shapeCasts_S2000_S2000x1 (ix2 p (0 : Fin 1)) (ix1 p) ?_)
    rw [Shape.rowMajor_val_one, Shape.rowMajor_val_two]
    show p.val = p.val * 1 + 0
    omega

/-- The kernel's payload is, in the block `z` of biased scores, a tree of whole-block operations: named here
    so that it is read at an index once. -/
def blockLogSoftmax (z : FVec Ideal S2000x20 .f32) : FVec Ideal S2000x20 .f32 :=
  let m : FVec Ideal S2000x20 .f32 := broadcastTo S2000x20 (shapeCast S2000x1
    (multiReduction .maximumf [1] S2000 z 0xFF800000#32 reduces_S2000x20_S2000 (.inl rfl) rfl)
    shapeCasts_S2000_S2000x1) broadcasts_S2000x1_S2000x20
  let s : FVec Ideal S2000x20 .f32 := subf z m
  let l : FVec Ideal S2000x20 .f32 := broadcastTo S2000x20 (log (shapeCast S2000x1
    (multiReduction .add [1] S2000 (exp s) 0x00000000#32 reduces_S2000x20_S2000 (.inl rfl) rfl)
    shapeCasts_S2000_S2000x1)) broadcasts_S2000x1_S2000x20
  subf s l

/-- The block of biased scores: the scores block plus the bias row on every row. -/
def biased (x0 : Vec Ideal S2000x20 .f32) (x1 : Vec Ideal S1x20 .f32) : FVec Ideal S2000x20 .f32 :=
  addf (F := Ideal) (shapeCast S2000x20 x0 shapeCasts_S2000x20_S2000x20)
    (broadcastTo S2000x20 (shapeCast S1x20 x1 shapeCasts_S1x20_S1x20) broadcasts_S1x20_S2000x20)

/-- The payload of the region's one store is `blockLogSoftmax` of the biased scores. -/
theorem pay_eq (x0 : Vec Ideal S2000x20 .f32) (x1 : Vec Ideal S1x20 .f32) :
    k3_pay1 (F := Ideal) x0 x1 = blockLogSoftmax (biased x0 x1) := rfl

/-- The biased scores at `(p, k)`: the block's entry plus the bias row's entry `k`. -/
theorem biased_apply (x0 : Vec Ideal S2000x20 .f32) (x1 : Vec Ideal S1x20 .f32) (p : Fin 2000) (k : Fin 20) :
    biased x0 x1 (ix2 p k) = x0 (ix2 p k) + x1 (ix2 (0 : Fin 1) k) := by
  unfold biased
  rw [shapeCast_self, shapeCast_self]
  exact congrArg (x0 (ix2 p k) + ·) (broadcastTo_1b_ab_apply x1 broadcasts_S1x20_S2000x20 p k)

/-- `blockLogSoftmax` at `(p, q)` is entry `q` of the log-softmax of row `p`. -/
theorem blockLogSoftmax_apply (z : FVec Ideal S2000x20 .f32) (p : Fin 2000) (q : Fin 20) :
    blockLogSoftmax z (ix2 p q) = rowLogSoftmax (fun k => z (ix2 p k)) q := by
  have hs : ∀ k : Fin 20, subf z (broadcastTo S2000x20 (shapeCast S2000x1
      (multiReduction .maximumf [1] S2000 z 0xFF800000#32 reduces_S2000x20_S2000 (.inl rfl) rfl)
      shapeCasts_S2000_S2000x1) broadcasts_S2000x1_S2000x20) (ix2 p k)
        = z (ix2 p k) - rowMax fun k => z (ix2 p k) := fun k =>
    congrArg (z (ix2 p k) - ·) ((column_apply _ p k).trans (laneMax_apply z p))
  unfold blockLogSoftmax rowLogSoftmax
  dsimp only
  refine congrArg₂ (· - ·) (hs q) ?_
  refine (column_log_apply _ p q).trans ?_
  refine congrArg Ideal.log ((laneSum_apply _ p).trans (Finset.sum_congr rfl fun k _ => ?_))
  exact congrArg Ideal.exp (hs k)

/-- THE PAYLOAD AT AN INDEX: entry `q` of the log-softmax of row `p` of the biased scores. -/
theorem pay_apply (x0 : Vec Ideal S2000x20 .f32) (x1 : Vec Ideal S1x20 .f32) (p : Fin 2000) (q : Fin 20) :
    k3_pay1 (F := Ideal) x0 x1 (ix2 p q) = rowLogSoftmax (fun k => x0 (ix2 p k) + x1 (ix2 (0 : Fin 1) k)) q := by
  rw [pay_eq, blockLogSoftmax_apply]
  exact congrArg (fun f => rowLogSoftmax f q) (funext fun k => biased_apply x0 x1 p k)

/-! ## The reference's `log_softmax`, and the same at an index -/

/-- The reference's `log_softmax` of a 100000 × 20 array `z`, operation by operation as its program lists
    them: the row maximum from minus infinity (and once more against minus infinity), broadcast back and
    subtracted; the exponential; the row sum from zero; its logarithm, broadcast back and subtracted. -/
def refLogSoftmax (z : (⟨Cert.ReferenceIdeal.S100000x20, .f32⟩ : BufTy).Contents (Elt Ideal)) :
    (⟨Cert.ReferenceIdeal.S100000x20, .f32⟩ : BufTy).Contents (Elt Ideal) :=
  let cst : (⟨Cert.ReferenceIdeal.S_, .f32⟩ : BufTy).Contents (Elt Ideal) :=
    constant (F := Ideal) Cert.ReferenceIdeal.S_ .f32 0xFF800000#32
  let v0 : (⟨Cert.ReferenceIdeal.S100000, .f32⟩ : BufTy).Contents (Elt Ideal) :=
    Host.reduce (FloatOps.maximumf (F := Ideal) (φ := .f32)) z cst
      Cert.ReferenceIdeal.Gen.reducesTo_S100000x20_S100000_d1 Cert.ReferenceIdeal.Gen.h_S_
  let cst_0 : (⟨Cert.ReferenceIdeal.S_, .f32⟩ : BufTy).Contents (Elt Ideal) :=
    constant (F := Ideal) Cert.ReferenceIdeal.S_ .f32 0xFF800000#32
  let v1 : (⟨Cert.ReferenceIdeal.S100000, .f32⟩ : BufTy).Contents (Elt Ideal) :=
    broadcastInDim Cert.ReferenceIdeal.S100000 ![] Cert.ReferenceIdeal.Gen.bcast_S_S100000 cst_0
  let v2 : (⟨Cert.ReferenceIdeal.S100000, .f32⟩ : BufTy).Contents (Elt Ideal) := maximumf (F := Ideal) (φ := .f32) v1 v0
  let v3 : (⟨Cert.ReferenceIdeal.S100000x1, .f32⟩ : BufTy).Contents (Elt Ideal) :=
    broadcastInDim Cert.ReferenceIdeal.S100000x1 ![0] Cert.ReferenceIdeal.Gen.bcast_S100000_S100000x1_0 v2
  let v4 : (⟨Cert.ReferenceIdeal.S100000x20, .f32⟩ : BufTy).Contents (Elt Ideal) :=
    broadcastInDim Cert.ReferenceIdeal.S100000x20 ![0, 1] Cert.ReferenceIdeal.Gen.bcast_S100000x1_S100000x20_0_1 v3
  let v5 : (⟨Cert.ReferenceIdeal.S100000x20, .f32⟩ : BufTy).Contents (Elt Ideal) := subf (F := Ideal) (φ := .f32) z v4
  let v6 : (⟨Cert.ReferenceIdeal.S100000x20, .f32⟩ : BufTy).Contents (Elt Ideal) := Host.exp (F := Ideal) (φ := .f32) v5
  let cst_1 : (⟨Cert.ReferenceIdeal.S_, .f32⟩ : BufTy).Contents (Elt Ideal) :=
    constant (F := Ideal) Cert.ReferenceIdeal.S_ .f32 0x00000000#32
  let v7 : (⟨Cert.ReferenceIdeal.S100000, .f32⟩ : BufTy).Contents (Elt Ideal) :=
    Host.reduceAdd (F := Ideal) (φ := .f32) v6 cst_1
      Cert.ReferenceIdeal.Gen.reducesTo_S100000x20_S100000_d1 Cert.ReferenceIdeal.Gen.h_S_
  let v8 : (⟨Cert.ReferenceIdeal.S100000x1, .f32⟩ : BufTy).Contents (Elt Ideal) :=
    broadcastInDim Cert.ReferenceIdeal.S100000x1 ![0] Cert.ReferenceIdeal.Gen.bcast_S100000_S100000x1_0 v7
  let v9 : (⟨Cert.ReferenceIdeal.S100000x1, .f32⟩ : BufTy).Contents (Elt Ideal) := Host.log (F := Ideal) (φ := .f32) v8
  let v10 : (⟨Cert.ReferenceIdeal.S100000x20, .f32⟩ : BufTy).Contents (Elt Ideal) :=
    broadcastInDim Cert.ReferenceIdeal.S100000x20 ![0, 1] Cert.ReferenceIdeal.Gen.bcast_S100000x1_S100000x20_0_1 v9
  subf (F := Ideal) (φ := .f32) v5 v10

/-- The reduced axis of the reference's two row reductions, as the fact that names the inserted index. -/
theorem refReduces : Cert.ReferenceIdeal.S100000x20.Reduces [1] Cert.ReferenceIdeal.S100000 := by decide

/-- A vector of 100000 row values broadcast to a column and then along the 20 classes reads at `(r, q)` the
    value of row `r`. -/
theorem refColumn_apply (v : (⟨Cert.ReferenceIdeal.S100000, .f32⟩ : BufTy).Contents (Elt Ideal)) (r : Fin 100000) (q : Fin 20) :
    broadcastInDim Cert.ReferenceIdeal.S100000x20 ![0, 1] Cert.ReferenceIdeal.Gen.bcast_S100000x1_S100000x20_0_1
        (broadcastInDim Cert.ReferenceIdeal.S100000x1 ![0] Cert.ReferenceIdeal.Gen.bcast_S100000_S100000x1_0 v) (ix2 r q)
      = v (ix1 r) := by
  refine (broadcastInDim_apply _ Cert.ReferenceIdeal.Gen.bcast_S100000x1_S100000x20_0_1 _ (ix2 r q) (ix2 r (0 : Fin 1)) fun a => ?_).trans ?_
  · match a with
    | ⟨0, _⟩ => show r.val = if (100000 : Nat) = 1 then 0 else r.val; rw [if_neg (by decide)]
    | ⟨1, _⟩ => show 0 = if (1 : Nat) = 1 then 0 else q.val; rw [if_pos rfl]
  · refine broadcastInDim_apply _ Cert.ReferenceIdeal.Gen.bcast_S100000_S100000x1_0 v (ix2 r (0 : Fin 1)) (ix1 r) fun a => ?_
    match a with
    | ⟨0, _⟩ => show r.val = if (100000 : Nat) = 1 then 0 else r.val; rw [if_neg (by decide)]

/-- The same through an elementwise logarithm of the column. -/
theorem refColumn_log_apply (v : (⟨Cert.ReferenceIdeal.S100000, .f32⟩ : BufTy).Contents (Elt Ideal)) (r : Fin 100000) (q : Fin 20) :
    broadcastInDim Cert.ReferenceIdeal.S100000x20 ![0, 1] Cert.ReferenceIdeal.Gen.bcast_S100000x1_S100000x20_0_1
        (Host.log (F := Ideal) (φ := .f32) (broadcastInDim Cert.ReferenceIdeal.S100000x1 ![0] Cert.ReferenceIdeal.Gen.bcast_S100000_S100000x1_0 v)) (ix2 r q)
      = Ideal.log (v (ix1 r)) := by
  refine (broadcastInDim_apply _ Cert.ReferenceIdeal.Gen.bcast_S100000x1_S100000x20_0_1 _ (ix2 r q) (ix2 r (0 : Fin 1)) fun a => ?_).trans ?_
  · match a with
    | ⟨0, _⟩ => show r.val = if (100000 : Nat) = 1 then 0 else r.val; rw [if_neg (by decide)]
    | ⟨1, _⟩ => show 0 = if (1 : Nat) = 1 then 0 else q.val; rw [if_pos rfl]
  · show Ideal.log (broadcastInDim Cert.ReferenceIdeal.S100000x1 ![0] Cert.ReferenceIdeal.Gen.bcast_S100000_S100000x1_0 v (ix2 r (0 : Fin 1))) = _
    refine congrArg Ideal.log (broadcastInDim_apply _ Cert.ReferenceIdeal.Gen.bcast_S100000_S100000x1_0 v (ix2 r (0 : Fin 1)) (ix1 r) fun a => ?_)
    match a with
    | ⟨0, _⟩ => show r.val = if (100000 : Nat) = 1 then 0 else r.val; rw [if_neg (by decide)]

/-- The reference's row reduce by `max` from minus infinity, at row `r`: the row's maximum. (The reduce
    is a fold over all two million entries of the array; it is read through the law for a reduction along one axis.) -/
theorem refReduceMax_apply (z : (⟨Cert.ReferenceIdeal.S100000x20, .f32⟩ : BufTy).Contents (Elt Ideal)) (r : Fin 100000) :
    Host.reduce (FloatOps.maximumf (F := Ideal) (φ := .f32)) z (constant (F := Ideal) Cert.ReferenceIdeal.S_ .f32 0xFF800000#32)
        Cert.ReferenceIdeal.Gen.reducesTo_S100000x20_S100000_d1 Cert.ReferenceIdeal.Gen.h_S_ (ix1 r)
      = rowMax fun k => z (ix2 r k) := by
  refine (Host.reduce_eq_fold_single (FloatOps.maximumf (F := Ideal) (φ := .f32)) z
    (constant (F := Ideal) Cert.ReferenceIdeal.S_ .f32 0xFF800000#32)
    Cert.ReferenceIdeal.Gen.reducesTo_S100000x20_S100000_d1 refReduces Cert.ReferenceIdeal.Gen.h_S_ (ix1 r)).trans ?_
  show (Finset.univ : Finset (Fin 20)).fold max negInf (fun k => z (refReduces.lift (ix1 r) k)) = _
  unfold rowMax
  refine congrArg (fun g => (Finset.univ : Finset (Fin 20)).fold max negInf g) (funext fun k => congrArg z ?_)
  funext a
  apply Fin.ext
  match a with
  | ⟨0, _⟩ => rfl
  | ⟨1, _⟩ => rfl

/-- The maximum of the broadcast minus infinity with any vector `w` of row values, at row `r`. -/
theorem refMaxInf_apply (w : (⟨Cert.ReferenceIdeal.S100000, .f32⟩ : BufTy).Contents (Elt Ideal)) (r : Fin 100000) :
    maximumf (F := Ideal) (φ := .f32)
        (broadcastInDim Cert.ReferenceIdeal.S100000 ![] Cert.ReferenceIdeal.Gen.bcast_S_S100000
          (constant (F := Ideal) Cert.ReferenceIdeal.S_ .f32 0xFF800000#32)) w (ix1 r)
      = max negInf (w (ix1 r)) := by
  show max (broadcastInDim Cert.ReferenceIdeal.S100000 ![] Cert.ReferenceIdeal.Gen.bcast_S_S100000
          (constant (F := Ideal) Cert.ReferenceIdeal.S_ .f32 0xFF800000#32) (ix1 r)) (w (ix1 r)) = _
  rw [broadcastInDim_scalar_apply]
  rfl

/-- The reference's row maximum at row `r` — the reduce from minus infinity, then the maximum with minus
    infinity again — is the row's maximum. -/
theorem refMax_apply (z : (⟨Cert.ReferenceIdeal.S100000x20, .f32⟩ : BufTy).Contents (Elt Ideal)) (r : Fin 100000) :
    maximumf (F := Ideal) (φ := .f32)
        (broadcastInDim Cert.ReferenceIdeal.S100000 ![] Cert.ReferenceIdeal.Gen.bcast_S_S100000
          (constant (F := Ideal) Cert.ReferenceIdeal.S_ .f32 0xFF800000#32))
        (Host.reduce (FloatOps.maximumf (F := Ideal) (φ := .f32)) z (constant (F := Ideal) Cert.ReferenceIdeal.S_ .f32 0xFF800000#32)
          Cert.ReferenceIdeal.Gen.reducesTo_S100000x20_S100000_d1 Cert.ReferenceIdeal.Gen.h_S_) (ix1 r)
      = rowMax fun k => z (ix2 r k) :=
  (refMaxInf_apply _ r).trans ((congrArg (max negInf) (refReduceMax_apply z r)).trans (max_fold_max negInf _))

/-- The reference's row sum from zero at row `r` is the row's sum. -/
theorem refSum_apply (y : (⟨Cert.ReferenceIdeal.S100000x20, .f32⟩ : BufTy).Contents (Elt Ideal)) (r : Fin 100000) :
    Host.reduceAdd (F := Ideal) (φ := .f32) y (constant (F := Ideal) Cert.ReferenceIdeal.S_ .f32 0x00000000#32)
        Cert.ReferenceIdeal.Gen.reducesTo_S100000x20_S100000_d1 Cert.ReferenceIdeal.Gen.h_S_ (ix1 r)
      = ∑ k : Fin 20, y (ix2 r k) := by
  rw [hostReduceAdd_apply, Ideal.hostReduceAdd_single Cert.ReferenceIdeal.Gen.reducesTo_S100000x20_S100000_d1 refReduces]
  show Ideal.ofBits .f32 0x00000000#32 + ∑ k : Fin 20, y (refReduces.lift (ix1 r) k) = _
  rw [Ideal.ofBits_zero_f32, zero_add]
  refine Finset.sum_congr rfl fun k _ => congrArg y ?_
  funext a
  apply Fin.ext
  match a with
  | ⟨0, _⟩ => rfl
  | ⟨1, _⟩ => rfl

/-- THE REFERENCE AT AN INDEX: entry `q` of the log-softmax of row `r` of `z`. -/
theorem refLogSoftmax_apply (z : (⟨Cert.ReferenceIdeal.S100000x20, .f32⟩ : BufTy).Contents (Elt Ideal)) (r : Fin 100000) (q : Fin 20) :
    refLogSoftmax z (ix2 r q) = rowLogSoftmax (fun k => z (ix2 r k)) q := by
  unfold refLogSoftmax rowLogSoftmax
  dsimp only
  refine congrArg₂ (· - ·) ?_ ?_
  · exact congrArg (z (ix2 r q) - ·) ((refColumn_apply _ r q).trans (refMax_apply z r))
  · refine (refColumn_log_apply _ r q).trans (congrArg Ideal.log ((refSum_apply _ r).trans (Finset.sum_congr rfl fun k _ => ?_)))
    exact congrArg Ideal.exp (congrArg (z (ix2 r k) - ·) ((refColumn_apply _ r k).trans (refMax_apply z r)))

/-! ## From the blocks to the array

Grid point `t` stages rows `2000 t … 2000 t + 1999` of the scores and the whole bias row, and writes back the same
rows of the output. A row's log-softmax depends on that row alone, so what point `t` writes back is block `t` of the
reference's `log_softmax` of the whole biased array; the fifty blocks tile the array. -/

/-- The zero offsets of a whole-buffer access. -/
theorem zeroOffsets : (![0, 0] : Fin 2 → Nat) = fun _ => 0 := funext fun a => by fin_cases a <;> rfl

/-- What the output array ends holding, as one function of the scores array `A` and the bias row `B`: the
    reference's `log_softmax` of `A` plus `B` on every row. -/
def result (A : (⟨Cert.ReferenceIdeal.S100000x20, .f32⟩ : BufTy).Contents (Elt Ideal))
    (B : (⟨Cert.ReferenceIdeal.S1x20, .f32⟩ : BufTy).Contents (Elt Ideal)) :
    (⟨Cert.ReferenceIdeal.S100000x20, .f32⟩ : BufTy).Contents (Elt Ideal) :=
  refLogSoftmax (addf (F := Ideal) (φ := .f32) A
    (broadcastInDim Cert.ReferenceIdeal.S100000x20 ![0, 1] Cert.ReferenceIdeal.Gen.bcast_S1x20_S100000x20_0_1 B))

/-- The biased array at `(r, k)`: the scores' entry plus the bias row's entry `k`. -/
theorem refBiased_apply (A : (⟨Cert.ReferenceIdeal.S100000x20, .f32⟩ : BufTy).Contents (Elt Ideal))
    (B : (⟨Cert.ReferenceIdeal.S1x20, .f32⟩ : BufTy).Contents (Elt Ideal)) (r : Fin 100000) (k : Fin 20) :
    addf (F := Ideal) (φ := .f32) A
        (broadcastInDim Cert.ReferenceIdeal.S100000x20 ![0, 1] Cert.ReferenceIdeal.Gen.bcast_S1x20_S100000x20_0_1 B) (ix2 r k)
      = A (ix2 r k) + B (ix2 (0 : Fin 1) k) := by
  refine congrArg (A (ix2 r k) + ·) (broadcastInDim_apply _ Cert.ReferenceIdeal.Gen.bcast_S1x20_S100000x20_0_1 B (ix2 r k) (ix2 (0 : Fin 1) k) fun a => ?_)
  match a with
  | ⟨0, _⟩ => show 0 = if (1 : Nat) = 1 then 0 else r.val; rw [if_pos rfl]
  | ⟨1, _⟩ => show k.val = if (20 : Nat) = 1 then 0 else k.val; rw [if_neg (by decide)]

/-- ONE ENTRY: if row `p` of a scores block is row `r` of the scores array and the staged bias row is the
    bias row, the payload at `(p, q)` is the result at `(r, q)`. -/
theorem point_eq (x0 : Vec Ideal S2000x20 .f32) (x1 : Vec Ideal S1x20 .f32)
    (A : (⟨Cert.ReferenceIdeal.S100000x20, .f32⟩ : BufTy).Contents (Elt Ideal))
    (B : (⟨Cert.ReferenceIdeal.S1x20, .f32⟩ : BufTy).Contents (Elt Ideal))
    (p : Fin 2000) (q : Fin 20) (r : Fin 100000)
    (h0 : ∀ k : Fin 20, x0 (ix2 p k) = A (ix2 r k))
    (h1 : ∀ k : Fin 20, x1 (ix2 (0 : Fin 1) k) = B (ix2 (0 : Fin 1) k)) :
    k3_pay1 (F := Ideal) x0 x1 (ix2 p q) = result A B (ix2 r q) := by
  unfold result
  rw [pay_apply, refLogSoftmax_apply]
  refine congrArg (fun f => rowLogSoftmax f q) (funext fun k => ?_)
  rw [refBiased_apply, h0 k, h1 k]

/-- The printed index maps over the fifty grid points: the scores' and the output's blocks are at block row
    `t`, block column 0; the bias row's block is the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- WHAT POINT `t` WRITES BACK is block `t` of `result` of the scores array and the bias row as the region
    finds them. -/
theorem flushed_eq (c : Dev nD) (t : Fin cfg3.N) :
    (dat3 (F := Ideal) V c).flushed 2 t
      = ((cfg3.win 2).blk t).view.read (Elt Ideal) (result (V c main_v59) (V c main_v60)) := by
  show (cfg3.win 2).cut (grid3.coords t) ((dat3 (F := Ideal) V c).after 2 t) = _
  rw [after3_2]
  unfold out3_2
  rw [View.canon_unit_zero zeroOffsets]
  simp only [View.ld_unit_zero (S := S2000x20) zeroOffsets, View.ld_unit_zero (S := S1x20) zeroOffsets]
  obtain ⟨e0, e1, e2, e3, e4, e5⟩ := idx_facts t
  have ht : t.val < 50 := by
    have h : t.val < grid3.N := t.isLt
    have hN : grid3.N = 50 := N_3
    omega
  funext j
  obtain ⟨p, q, rfl⟩ : ∃ (p : Fin 2000) (q : Fin 20), j = ix2 p q := ⟨j 0, j 1, eq_ix2 j⟩
  have hp : p.val < 2000 := p.isLt
  have hr : t.val * 2000 + p.val < 100000 := by omega
  -- the entry's place in the arrays: row `2000 t + p`, class `q`
  have hemb : ((cfg3.win 2).blk t).view.emb (ix2 p q) = ix2 (⟨t.val * 2000 + p.val, hr⟩ : Fin 100000) q := by
    funext a; apply Fin.ext
    match a with
    | ⟨0, _⟩ => show win3_2.index t (0 : Fin 2) * 2000 + 1 * p.val = t.val * 2000 + p.val; omega
    | ⟨1, _⟩ => show win3_2.index t (1 : Fin 2) * 20 + 1 * q.val = q.val; omega
  show k3_pay1 (F := Ideal) (iblk3 V c 0 t) (iblk3 V c 1 t) (ix2 p q)
    = result (V c main_v59) (V c main_v60) (((cfg3.win 2).blk t).view.emb (ix2 p q))
  refine (point_eq (iblk3 V c 0 t) (iblk3 V c 1 t) (V c main_v59) (V c main_v60) p q ⟨t.val * 2000 + p.val, hr⟩
    (fun k => ?_) (fun k => ?_)).trans (congrArg (result (V c main_v59) (V c main_v60)) hemb.symm)
  · show V c main_v59 (((cfg3.win 0).blk t).view.emb (ix2 p k)) = V c main_v59 (ix2 (⟨t.val * 2000 + p.val, hr⟩ : Fin 100000) k)
    refine congrArg (V c main_v59) ?_
    funext a; apply Fin.ext
    match a with
    | ⟨0, _⟩ => show win3_0.index t (0 : Fin 2) * 2000 + 1 * p.val = t.val * 2000 + p.val; omega
    | ⟨1, _⟩ => show win3_0.index t (1 : Fin 2) * 20 + 1 * k.val = k.val; omega
  · show V c main_v60 (((cfg3.win 1).blk t).view.emb (ix2 (0 : Fin 1) k)) = V c main_v60 (ix2 (0 : Fin 1) k)
    refine congrArg (V c main_v60) ?_
    funext a; apply Fin.ext
    match a with
    | ⟨0, _⟩ => show win3_1.index t (0 : Fin 2) * 1 + 1 * 0 = 0; omega
    | ⟨1, _⟩ => show win3_1.index t (1 : Fin 2) * 20 + 1 * k.val = k.val; omega

/-- An index of the output array is in point `t`'s block iff each coordinate is in the block's range on its axis. -/
theorem mem_blk (t : Fin cfg3.N) (i : S100000x20.Idx) :
    i ∈ ((cfg3.win 2).blk t).view.set ↔ ∀ a : Fin 2, win3_2.index t a * S2000x20.size a ≤ (i a).val
      ∧ (i a).val < win3_2.index t a * S2000x20.size a + S2000x20.size a := by
  show i ∈ ((View.whole main_v61).slice (win3_2.rect t)).set ↔ _
  rw [View.set_slice_whole, Rect.mem_set_unit]
  exact Iff.rfl

/-- THE BLOCKS TILE THE ARRAY: row `r` lies in the block of point `r / 2000`. -/
theorem cover (i : S100000x20.Idx) :
    ∃ t : Fin cfg3.N, (cfg3.win 2).flush t = true ∧ i ∈ ((cfg3.win 2).blk t).view.set := by
  have hi0 : (i 0).val < 100000 := (i 0).isLt
  have hi1 : (i 1).val < 20 := (i 1).isLt
  have hN : grid3.N = 50 := N_3
  obtain ⟨t, ht⟩ : ∃ t : Fin cfg3.N, t.val = (i 0).val / 2000 :=
    ⟨⟨(i 0).val / 2000, by show (i 0).val / 2000 < grid3.N; omega⟩, rfl⟩
  obtain ⟨e0, e1, e2, e3, e4, e5⟩ := idx_facts t
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 20 ≤ (i 1).val ∧ (i 1).val < win3_2.index t (1 : Fin 2) * 20 + 20
    omega

/-- THE OUTPUT ARRAY after the region: the reference's `log_softmax` of the scores array plus the bias row, as
    the region finds them. -/
theorem final (c : Dev nD) :
    (dat3 (F := Ideal) V c).arrAt 2 cfg3.N
      = refLogSoftmax (addf (F := Ideal) (φ := .f32) (V c main_v59)
          (broadcastInDim Cert.ReferenceIdeal.S100000x20 ![0, 1] Cert.ReferenceIdeal.Gen.bcast_S1x20_S100000x20_0_1 (V c main_v60))) :=
  (dat3 (F := Ideal) V c).arrAt_eq_of_cover 2 (result (V c main_v59) (V c main_v60)) (fun t _ => flushed_eq V c t) cover

/-! ## The same over the stage function of the reference's run -/

/-- The operations listed in `refLogSoftmax` are those of `Cert.Gcn.logSoftmaxRows`, in the same order and with
    the same shape facts. -/
theorem refLogSoftmax_eq : refLogSoftmax = Cert.Gcn.logSoftmaxRows (F := Ideal) := rfl

/-- THE OUTPUT ARRAY after the region is the row-wise log-softmax stage of the scores array plus the bias row. -/
theorem final_rows (c : Dev nD) :
    (dat3 (F := Ideal) V c).arrAt 2 cfg3.N
      = Cert.Gcn.logSoftmaxRows (F := Ideal) (addf (F := Ideal) (φ := .f32) (V c main_v59)
          (broadcastInDim Cert.ReferenceIdeal.S100000x20 ![0, 1] Cert.ReferenceIdeal.Facts₀.bcast_S1x20_S100000x20_0_1 (V c main_v60))) :=
  (final V c).trans (congrFun refLogSoftmax_eq _)

end Cert.KernelIdeal.SoftmaxRegion

end
-- ==== Proof.KernelValue.lean ====
/-
  What the idealized kernel program leaves in its result buffer.

  The run's segments are followed from the first region's entry to the return, one buffer at a time. The first region
  leaves the dense product X·W₁ of the launched features and weights. The stretch after it reads that product, the
  edge sources, targets and weights — all untouched by the region — and leaves one propagation step of the product,
  and the bias as a row. The second region adds the bias row to every row and sets negative entries to zero: the
  hidden layer. The third region leaves its dense product with W₂; the next stretch propagates it and lays out the
  second bias; the last region adds that bias and takes the row-wise log-softmax. A region writes only its own
  output array and a stretch only its own results, so every array read later is still what an earlier segment left.
-/
import proofs.«170878_j37941741093521_1_alg».proof.Proof.ChainEdges
import proofs.«170878_j37941741093521_1_alg».proof.Proof.Propagation
import proofs.«170878_j37941741093521_1_alg».proof.Proof.DenseRegion0
import proofs.«170878_j37941741093521_1_alg».proof.Proof.DenseRegion2
import proofs.«170878_j37941741093521_1_alg».proof.Proof.BiasReluRegion
import proofs.«170878_j37941741093521_1_alg».proof.Proof.SoftmaxRegion

set_option maxRecDepth 16384

noncomputable section

namespace Cert.KernelIdeal.Chain

open Cert.KernelIdeal Cert.KernelIdeal.Gen Cert.ReferenceIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The first region and the stretch after it -/

theorem exit0_sources : W4 m ρ c (Proc.devRef .tc main_v3) = Cert.Gcn.sources (F := Ideal) (m ((c : Thread nD τ).loc main_arg1)) :=
  (W4_of_ne m ρ c main_v3 (by decide)).trans (entry0_sources m ρ c)
theorem exit0_targets : W4 m ρ c (Proc.devRef .tc main_v6) = Cert.Gcn.targets (F := Ideal) (m ((c : Thread nD τ).loc main_arg1)) :=
  (W4_of_ne m ρ c main_v6 (by decide)).trans (entry0_targets m ρ c)
theorem exit0_edgeWeight : W4 m ρ c (Proc.devRef .tc main_v29) = Cert.Gcn.edgeWeight (F := Ideal) (m ((c : Thread nD τ).loc main_arg1)) :=
  (W4_of_ne m ρ c main_v29 (by decide)).trans (entry0_edgeWeight m ρ c)
theorem exit0_arg3 : W4 m ρ c (Proc.devRef .tc main_arg3) = (m ((c : Thread nD τ).loc main_arg3)) := (W4_of_ne m ρ c main_arg3 (by decide)).trans (entry0_arg3 m ρ c)
theorem exit0_arg4 : W4 m ρ c (Proc.devRef .tc main_arg4) = (m ((c : Thread nD τ).loc main_arg4)) := (W4_of_ne m ρ c main_arg4 (by decide)).trans (entry0_arg4 m ρ c)
theorem exit0_arg5 : W4 m ρ c (Proc.devRef .tc main_arg5) = (m ((c : Thread nD τ).loc main_arg5)) := (W4_of_ne m ρ c main_arg5 (by decide)).trans (entry0_arg5 m ρ c)

/-- The first region leaves the dense product of the launched features and first weights. -/
theorem exit0_product : W4 m ρ c (Proc.devRef .tc main_v30) = (Host.dotGeneral (F := Ideal) (φ₁ := .f32) (φ₂ := .f32) Cert.ReferenceIdeal.dot_S100000x1000_S1000x16_S100000x16_1_0_0_1_n_n none (m ((c : Thread nD τ).loc main_arg0)) (m ((c : Thread nD τ).loc main_arg2))) := by
  refine (W4_arr m ρ c 2).trans ?_
  rw [DenseRegion0.final (V3 m ρ) c]
  show Host.dotGeneral (F := Ideal) (φ₁ := .f32) (φ₂ := .f32) Cert.ReferenceIdeal.dot_S100000x1000_S1000x16_S100000x16_1_0_0_1_n_n none
    (W3 m ρ c (Proc.devRef .tc main_arg0)) (W3 m ρ c (Proc.devRef .tc main_arg2)) = _
  rw [entry0_arg0, entry0_arg2]

/-- The stretch after it leaves one propagation step of that product … -/
theorem entry1_rows : W5 m ρ c (Proc.devRef .tc main_v43) = Cert.Gcn.propagate16 (F := Ideal) (Host.dotGeneral (F := Ideal) (φ₁ := .f32) (φ₂ := .f32) Cert.ReferenceIdeal.dot_S100000x1000_S1000x16_S100000x16_1_0_0_1_n_n none (m ((c : Thread nD τ).loc main_arg0)) (m ((c : Thread nD τ).loc main_arg2))) (m ((c : Thread nD τ).loc main_arg1)) := by
  show StableHlo.after (hostOps1 (F := Ideal)) (W4 m ρ c) (Proc.devRef .tc main_v43) = _
  rw [Propagation.stretch1_propagate (W4 m ρ c) (m ((c : Thread nD τ).loc main_arg1)) (exit0_sources m ρ c) (exit0_targets m ρ c) (exit0_edgeWeight m ρ c), exit0_product]
/-- … and the first bias as a row. -/
theorem entry1_bias : W5 m ρ c (Proc.devRef .tc main_v44)
    = broadcastInDim Cert.ReferenceIdeal.S1x16 ![1] Cert.ReferenceIdeal.Facts₀.bcast_S16_S1x16_1 (m ((c : Thread nD τ).loc main_arg3)) := by
  show StableHlo.after (hostOps1 (F := Ideal)) (W4 m ρ c) (Proc.devRef .tc main_v44) = _
  rw [Propagation.stretch1_bias, exit0_arg3]
theorem entry1_sources : W5 m ρ c (Proc.devRef .tc main_v3) = Cert.Gcn.sources (F := Ideal) (m ((c : Thread nD τ).loc main_arg1)) :=
  (Propagation.stretch1_keeps_v3 (W4 m ρ c)).trans (exit0_sources m ρ c)
theorem entry1_targets : W5 m ρ c (Proc.devRef .tc main_v6) = Cert.Gcn.targets (F := Ideal) (m ((c : Thread nD τ).loc main_arg1)) :=
  (Propagation.stretch1_keeps_v6 (W4 m ρ c)).trans (exit0_targets m ρ c)
theorem entry1_edgeWeight : W5 m ρ c (Proc.devRef .tc main_v29) = Cert.Gcn.edgeWeight (F := Ideal) (m ((c : Thread nD τ).loc main_arg1)) :=
  (Propagation.stretch1_keeps_v29 (W4 m ρ c)).trans (exit0_edgeWeight m ρ c)
theorem entry1_arg4 : W5 m ρ c (Proc.devRef .tc main_arg4) = (m ((c : Thread nD τ).loc main_arg4)) := (Propagation.stretch1_keeps_arg4 (W4 m ρ c)).trans (exit0_arg4 m ρ c)
theorem entry1_arg5 : W5 m ρ c (Proc.devRef .tc main_arg5) = (m ((c : Thread nD τ).loc main_arg5)) := (Propagation.stretch1_keeps_arg5 (W4 m ρ c)).trans (exit0_arg5 m ρ c)

/-! ## The second and third regions -/

/-- The second region leaves the hidden layer. -/
theorem exit1_hidden : W6 m ρ c (Proc.devRef .tc main_v45) = (Cert.Gcn.hidden (F := Ideal) (m ((c : Thread nD τ).loc main_arg0)) (m ((c : Thread nD τ).loc main_arg1)) (m ((c : Thread nD τ).loc main_arg2)) (m ((c : Thread nD τ).loc main_arg3))) := by
  refine (W6_arr m ρ c 2).trans ?_
  rw [BiasReluRegion.final (V5 m ρ) c]
  show maximumf (addf (W5 m ρ c (Proc.devRef .tc main_v43))
      (broadcastInDim Cert.ReferenceIdeal.S100000x16 ![0, 1] Cert.ReferenceIdeal.Facts₀.bcast_S1x16_S100000x16_0_1 (W5 m ρ c (Proc.devRef .tc main_v44))))
    (broadcastInDim Cert.ReferenceIdeal.S100000x16 ![] Cert.ReferenceIdeal.Facts₀.bcast_S_S100000x16 (constant (F := Ideal) Cert.ReferenceIdeal.S_ .f32 0x00000000#32)) = _
  rw [entry1_rows, entry1_bias]
  rfl
theorem exit1_arg4 : W6 m ρ c (Proc.devRef .tc main_arg4) = (m ((c : Thread nD τ).loc main_arg4)) := (W6_of_ne m ρ c main_arg4 (by decide)).trans (entry1_arg4 m ρ c)

/-- The third region leaves the dense product of the hidden layer and the second weights. -/
theorem exit2_product : W7 m ρ c (Proc.devRef .tc main_v46) = (Host.dotGeneral (F := Ideal) (φ₁ := .f32) (φ₂ := .f32) Cert.ReferenceIdeal.dot_S100000x16_S16x20_S100000x20_1_0_0_1_n_n none (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) := by
  refine (W7_arr m ρ c 2).trans ?_
  rw [DenseRegion2.final (V6 m ρ) c]
  show Host.dotGeneral (F := Ideal) (φ₁ := .f32) (φ₂ := .f32) Cert.ReferenceIdeal.dot_S100000x16_S16x20_S100000x20_1_0_0_1_n_n none
    (W6 m ρ c (Proc.devRef .tc main_v45)) (W6 m ρ c (Proc.devRef .tc main_arg4)) = _
  rw [exit1_hidden, exit1_arg4]
theorem exit2_sources : W7 m ρ c (Proc.devRef .tc main_v3) = Cert.Gcn.sources (F := Ideal) (m ((c : Thread nD τ).loc main_arg1)) :=
  (W7_of_ne m ρ c main_v3 (by decide)).trans ((W6_of_ne m ρ c main_v3 (by decide)).trans (entry1_sources m ρ c))
theorem exit2_targets : W7 m ρ c (Proc.devRef .tc main_v6) = Cert.Gcn.targets (F := Ideal) (m ((c : Thread nD τ).loc main_arg1)) :=
  (W7_of_ne m ρ c main_v6 (by decide)).trans ((W6_of_ne m ρ c main_v6 (by decide)).trans (entry1_targets m ρ c))
theorem exit2_edgeWeight : W7 m ρ c (Proc.devRef .tc main_v29) = Cert.Gcn.edgeWeight (F := Ideal) (m ((c : Thread nD τ).loc main_arg1)) :=
  (W7_of_ne m ρ c main_v29 (by decide)).trans ((W6_of_ne m ρ c main_v29 (by decide)).trans (entry1_edgeWeight m ρ c))
theorem exit2_arg5 : W7 m ρ c (Proc.devRef .tc main_arg5) = (m ((c : Thread nD τ).loc main_arg5)) :=
  (W7_of_ne m ρ c main_arg5 (by decide)).trans ((W6_of_ne m ρ c main_arg5 (by decide)).trans (entry1_arg5 m ρ c))

/-! ## The last stretch and the last region -/

theorem entry3_rows : W8 m ρ c (Proc.devRef .tc main_v59) = Cert.Gcn.propagate20 (F := Ideal) (Host.dotGeneral (F := Ideal) (φ₁ := .f32) (φ₂ := .f32) Cert.ReferenceIdeal.dot_S100000x16_S16x20_S100000x20_1_0_0_1_n_n none (Cert.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) (m ((c : Thread nD τ).loc main_arg1)) := by
  show StableHlo.after (hostOps3 (F := Ideal)) (W7 m ρ c) (Proc.devRef .tc main_v59) = _
  rw [Propagation.stretch3_propagate (W7 m ρ c) (m ((c : Thread nD τ).loc main_arg1)) (exit2_sources m ρ c) (exit2_targets m ρ c) (exit2_edgeWeight m ρ c), exit2_product]
theorem entry3_bias : W8 m ρ c (Proc.devRef .tc main_v60)
    = broadcastInDim Cert.ReferenceIdeal.S1x20 ![1] Cert.ReferenceIdeal.Facts₀.bcast_S20_S1x20_1 (m ((c : Thread nD τ).loc main_arg5)) := by
  show StableHlo.after (hostOps3 (F := Ideal)) (W7 m ρ c) (Proc.devRef .tc main_v60) = _
  rw [Propagation.stretch3_bias, exit2_arg5]

/-- THE RESULT: the row-wise log-softmax of the logits of the launched arguments. -/
theorem result : W9 m ρ c (Proc.devRef .tc main_v61)
    = Cert.Gcn.logSoftmaxRows (F := Ideal) (Cert.Gcn.logits (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W9_arr m ρ c 2).trans ?_
  rw [SoftmaxRegion.final_rows (V8 m ρ) c]
  show Cert.Gcn.logSoftmaxRows (F := Ideal) (addf (F := Ideal) (φ := .f32) (W8 m ρ c (Proc.devRef .tc main_v59))
      (broadcastInDim Cert.ReferenceIdeal.S100000x20 ![0, 1] Cert.ReferenceIdeal.Facts₀.bcast_S1x20_S100000x20_0_1 (W8 m ρ c (Proc.devRef .tc main_v60)))) = _
  rw [entry3_rows, entry3_bias]
  rfl

end Cert.KernelIdeal.Chain

end
-- ==== Proof.RefStaged.lean ====
/-
  The reference program's run, read stage by stage.

  @main of the reference is a straight line of 98 host operations, so its run ends with every buffer at the fold of
  the operations over the launch contents. The fold is read here in seven stretches, each as one function of what
  it finds, over ANY contents of the buffers before it: the edge lists with their self loops and the degrees
  (18 operations); the outlined selection that sets the inverse square root of a degree to zero where the degree is
  not positive (3); the edge weights (19); the first layer — the dense product, one propagation step, the bias
  (20); the outlined rectification (3); the second layer (20); the outlined row-wise log-softmax (15). A stretch
  reads a handful of buffers and writes none of the ones a later stretch reads from before it, so the stretches
  compose: the result buffer ends at the log-softmax of the logits of the launched arguments, and no operation writes
  an argument.
-/
import proofs.«170878_j37941741093521_1_alg».proof.Proof.RefRun
import proofs.«170878_j37941741093521_1_alg».proof.Proof.Stages
import Idealize.ShloMosaic.Lib.StableHlo.Run

set_option maxRecDepth 16384

noncomputable section

namespace Cert.ReferenceIdeal.Staged

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The seven stretches -/

/-- The edge lists with their self loops, the degrees, the comparison of each degree with zero and its inverse square root. -/
abbrev opsEdges : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The outlined selection: the inverse square root where the degree is positive, zero elsewhere. -/
abbrev opsWhere : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edge weights: the selected values gathered at the wrapped sources and at the wrapped targets, multiplied. -/
abbrev opsWeights : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first layer: the dense product, one propagation step, the bias added. -/
abbrev opsLayer1 : List (HloOp τ sig (Elt F)) :=
  [ binary main_arg0 main_arg2 main_v30 ((fun l r => Host.dotGeneral dot_S100000x1000_S1000x16_S100000x16_1_0_0_1_n_n none l r) : (⟨S100000x1000, .f32⟩ : BufTy).Contents (Elt F) → (⟨S1000x16, .f32⟩ : BufTy).Contents (Elt F) → (⟨S100000x16, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]

/-- The outlined rectification: the maximum with zero. -/
abbrev opsRelu : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf ]

/-- The second layer: the dense product of the hidden layer, one propagation step, the bias added. -/
abbrev opsLayer2 : List (HloOp τ sig (Elt F)) :=
  [ binary main_v47 main_arg4 main_v48 ((fun l r => Host.dotGeneral dot_S100000x16_S16x20_S100000x20_1_0_0_1_n_n none l r) : (⟨S100000x16, .f32⟩ : BufTy).Contents (Elt F) → (⟨S16x20, .f32⟩ : BufTy).Contents (Elt F) → (⟨S100000x20, .f32⟩ : BufTy).Contents (Elt F)),
    nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x20_S3300000x1_S3300000x20_1_0_n_n_0_1_120 x i) : (⟨S100000x20, .f32⟩ : BufTy).Contents (Elt F) → (⟨S3300000x1, .i32⟩ : BufTy).Contents (Elt F) → (⟨S3300000x20, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x20 ![0, 1] bcast_S3300000x1_S3300000x20_0_1 : (⟨S3300000x1, .f32⟩ : BufTy).Contents (Elt F) → (⟨S3300000x20, .f32⟩ : BufTy).Contents (Elt F)),
    binary main_v55 main_v57 main_v58 (mulf : (⟨S3300000x20, .f32⟩ : BufTy).Contents (Elt F) → (⟨S3300000x20, .f32⟩ : BufTy).Contents (Elt F) → (⟨S3300000x20, .f32⟩ : BufTy).Contents (Elt F)),
    nullary main_cst_11 (constant S_ .f32 0x00000000#32),
    unary main_cst_11 main_v59 (broadcastInDim S100000x20 ![] bcast_S_S100000x20 : (⟨S_, .f32⟩ : BufTy).Contents (Elt F) → (⟨S100000x20, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x20_S3300000x1_S3300000x20_1_0_0_1 x i u) : (⟨S100000x20, .f32⟩ : BufTy).Contents (Elt F) → (⟨S3300000x1, .i32⟩ : BufTy).Contents (Elt F) → (⟨S3300000x20, .f32⟩ : BufTy).Contents (Elt F) → (⟨S100000x20, .f32⟩ : BufTy).Contents (Elt F)),
    unary main_arg5 main_v62 (broadcastInDim S1x20 ![1] bcast_S20_S1x20_1 : (⟨S20, .f32⟩ : BufTy).Contents (Elt F) → (⟨S1x20, .f32⟩ : BufTy).Contents (Elt F)),
    unary main_v62 main_v63 (broadcastInDim S100000x20 ![0, 1] bcast_S1x20_S100000x20_0_1 : (⟨S1x20, .f32⟩ : BufTy).Contents (Elt F) → (⟨S100000x20, .f32⟩ : BufTy).Contents (Elt F)),
    binary main_v61 main_v63 main_v64 (addf : (⟨S100000x20, .f32⟩ : BufTy).Contents (Elt F) → (⟨S100000x20, .f32⟩ : BufTy).Contents (Elt F) → (⟨S100000x20, .f32⟩ : BufTy).Contents (Elt F)) ]

/-- The outlined row-wise log-softmax. -/
abbrev opsLogSoftmax : List (HloOp τ sig (Elt F)) :=
  [ TRef.nullary (TRef.of (T := ⟨S_, .f32⟩) main_call2_cst) (constant S_ .f32 0xFF800000#32),
    TRef.binary (TRef.of (T := ⟨S100000x20, .f32⟩) main_v64) (TRef.of (T := ⟨S_, .f32⟩) main_call2_cst) (TRef.of (T := ⟨S100000, .f32⟩) main_call2_v0) (fun x v => Host.reduce FloatOps.maximumf x v reducesTo_S100000x20_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x20, .f32⟩) main_call2_v4) (broadcastInDim S100000x20 ![0, 1] bcast_S100000x1_S100000x20_0_1),
    TRef.binary (TRef.of (T := ⟨S100000x20, .f32⟩) main_v64) (TRef.of (T := ⟨S100000x20, .f32⟩) main_call2_v4) (TRef.of (T := ⟨S100000x20, .f32⟩) main_call2_v5) subf,
    TRef.unary (TRef.of (T := ⟨S100000x20, .f32⟩) main_call2_v5) (TRef.of (T := ⟨S100000x20, .f32⟩) main_call2_v6) Host.exp,
    TRef.nullary (TRef.of (T := ⟨S_, .f32⟩) main_call2_cst_1) (constant S_ .f32 0x00000000#32),
    TRef.binary (TRef.of (T := ⟨S100000x20, .f32⟩) main_call2_v6) (TRef.of (T := ⟨S_, .f32⟩) main_call2_cst_1) (TRef.of (T := ⟨S100000, .f32⟩) main_call2_v7) (fun x v => Host.reduceAdd x v reducesTo_S100000x20_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x20, .f32⟩) main_call2_v10) (broadcastInDim S100000x20 ![0, 1] bcast_S100000x1_S100000x20_0_1),
    TRef.binary (TRef.of (T := ⟨S100000x20, .f32⟩) main_call2_v5) (TRef.of (T := ⟨S100000x20, .f32⟩) main_call2_v10) (TRef.of (T := ⟨S100000x20, .f32⟩) main_v65) subf ]

/-! The log-softmax stretch in four parts, so that each row reduction is read with only its own few operations around it. -/

/-- The row maxima: the maximum of every row of 20, from minus infinity. -/
abbrev opsRowMax : List (HloOp τ sig (Elt F)) :=
  [ TRef.nullary (TRef.of (T := ⟨S_, .f32⟩) main_call2_cst) (constant S_ .f32 0xFF800000#32),
    TRef.binary (TRef.of (T := ⟨S100000x20, .f32⟩) main_v64) (TRef.of (T := ⟨S_, .f32⟩) main_call2_cst) (TRef.of (T := ⟨S100000, .f32⟩) main_call2_v0) (fun x v => Host.reduce FloatOps.maximumf x v reducesTo_S100000x20_S100000_d1 h_S_) ]

/-- Every entry minus its row's maximum. -/
abbrev opsCentered : List (HloOp τ sig (Elt F)) :=
  [ TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x20, .f32⟩) main_call2_v4) (broadcastInDim S100000x20 ![0, 1] bcast_S100000x1_S100000x20_0_1),
    TRef.binary (TRef.of (T := ⟨S100000x20, .f32⟩) main_v64) (TRef.of (T := ⟨S100000x20, .f32⟩) main_call2_v4) (TRef.of (T := ⟨S100000x20, .f32⟩) main_call2_v5) subf ]

/-- The row sums of the exponentials of those differences. -/
abbrev opsSumExp : List (HloOp τ sig (Elt F)) :=
  [ TRef.unary (TRef.of (T := ⟨S100000x20, .f32⟩) main_call2_v5) (TRef.of (T := ⟨S100000x20, .f32⟩) main_call2_v6) Host.exp,
    TRef.nullary (TRef.of (T := ⟨S_, .f32⟩) main_call2_cst_1) (constant S_ .f32 0x00000000#32),
    TRef.binary (TRef.of (T := ⟨S100000x20, .f32⟩) main_call2_v6) (TRef.of (T := ⟨S_, .f32⟩) main_call2_cst_1) (TRef.of (T := ⟨S100000, .f32⟩) main_call2_v7) (fun x v => Host.reduceAdd x v reducesTo_S100000x20_S100000_d1 h_S_) ]

/-- Every difference minus the logarithm of its row's sum. -/
abbrev opsLogSub : List (HloOp τ sig (Elt F)) :=
  [ TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x20, .f32⟩) main_call2_v10) (broadcastInDim S100000x20 ![0, 1] bcast_S100000x1_S100000x20_0_1),
    TRef.binary (TRef.of (T := ⟨S100000x20, .f32⟩) main_call2_v5) (TRef.of (T := ⟨S100000x20, .f32⟩) main_call2_v10) (TRef.of (T := ⟨S100000x20, .f32⟩) main_v65) subf ]

/-- The log-softmax stretch is those four in order. -/
theorem opsLogSoftmax_split : (opsLogSoftmax : List (HloOp τ sig (Elt F))) =
    opsRowMax ++ (opsCentered ++ (opsSumExp ++ opsLogSub)) := rfl

/-- @main's operations are the seven stretches in order. -/
theorem ops_split : (ops : List (HloOp τ sig (Elt F))) =
    opsEdges ++ (opsWhere ++ (opsWeights ++ (opsLayer1 ++ (opsRelu ++ (opsLayer2 ++ opsLogSoftmax))))) := rfl

/-- The fold over two stretches in a row is the fold over the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## Each stretch as a function of what it finds -/

theorem edges_sources (W : Valuation τ sig (Elt F)) :
    after (opsEdges (F := F)) W (Proc.devRef .tc main_v3) = Cert.Gcn.sources (F := F) (W (Proc.devRef .tc main_arg1)) := by
  after_results_simp <;> rfl
theorem edges_targets (W : Valuation τ sig (Elt F)) :
    after (opsEdges (F := F)) W (Proc.devRef .tc main_v6) = Cert.Gcn.targets (F := F) (W (Proc.devRef .tc main_arg1)) := by
  after_results_simp <;> rfl
/-- Where the degree is positive. -/
theorem edges_positive (W : Valuation τ sig (Elt F)) :
    after (opsEdges (F := F)) W (Proc.devRef .tc main_v12)
      = cmpf (F := F) .ogt (Cert.Gcn.degree (F := F) (W (Proc.devRef .tc main_arg1))) (broadcastInDim S100000 ![] bcast_S_S100000 (constant S_ .f32 0x00000000#32)) := by
  after_results_simp <;> rfl
theorem edges_rsqrt (W : Valuation τ sig (Elt F)) :
    after (opsEdges (F := F)) W (Proc.devRef .tc main_v13) = Host.rsqrt (Cert.Gcn.degree (F := F) (W (Proc.devRef .tc main_arg1))) := by
  after_results_simp <;> rfl
theorem edges_zero (W : Valuation τ sig (Elt F)) :
    after (opsEdges (F := F)) W (Proc.devRef .tc main_cst_2) = (constant (F := F) S_ .f32 0x00000000#32) := by
  after_results_simp <;> rfl
theorem edges_keeps_arg0 (W : Valuation τ sig (Elt F)) :
    after (opsEdges (F := F)) W (Proc.devRef .tc main_arg0) = W (Proc.devRef .tc main_arg0) := by
  after_results_simp
theorem edges_keeps_arg2 (W : Valuation τ sig (Elt F)) :
    after (opsEdges (F := F)) W (Proc.devRef .tc main_arg2) = W (Proc.devRef .tc main_arg2) := by
  after_results_simp
theorem edges_keeps_arg3 (W : Valuation τ sig (Elt F)) :
    after (opsEdges (F := F)) W (Proc.devRef .tc main_arg3) = W (Proc.devRef .tc main_arg3) := by
  after_results_simp
theorem edges_keeps_arg4 (W : Valuation τ sig (Elt F)) :
    after (opsEdges (F := F)) W (Proc.devRef .tc main_arg4) = W (Proc.devRef .tc main_arg4) := by
  after_results_simp
theorem edges_keeps_arg5 (W : Valuation τ sig (Elt F)) :
    after (opsEdges (F := F)) W (Proc.devRef .tc main_arg5) = W (Proc.devRef .tc main_arg5) := by
  after_results_simp

/-- The selection of the outlined function, from the three buffers it reads. -/
theorem where_select (W : Valuation τ sig (Elt F)) :
    after (opsWhere (F := F)) W (Proc.devRef .tc main_v14)
      = select ((W (Proc.devRef .tc main_v12)) : (⟨S100000, .i1⟩ : BufTy).Contents (Elt F)) ((W (Proc.devRef .tc main_v13)) : (⟨S100000, .f32⟩ : BufTy).Contents (Elt F))
          (broadcastInDim S100000 ![] bcast_S_S100000 (id ((W (Proc.devRef .tc main_cst_2)) : (⟨S_, .f32⟩ : BufTy).Contents (Elt F)))) := by
  after_results_simp <;> rfl
theorem where_keeps_v3 (W : Valuation τ sig (Elt F)) :
    after (opsWhere (F := F)) W (Proc.devRef .tc main_v3) = W (Proc.devRef .tc main_v3) := by
  after_results_simp
theorem where_keeps_v6 (W : Valuation τ sig (Elt F)) :
    after (opsWhere (F := F)) W (Proc.devRef .tc main_v6) = W (Proc.devRef .tc main_v6) := by
  after_results_simp
theorem where_keeps_arg0 (W : Valuation τ sig (Elt F)) :
    after (opsWhere (F := F)) W (Proc.devRef .tc main_arg0) = W (Proc.devRef .tc main_arg0) := by
  after_results_simp
theorem where_keeps_arg2 (W : Valuation τ sig (Elt F)) :
    after (opsWhere (F := F)) W (Proc.devRef .tc main_arg2) = W (Proc.devRef .tc main_arg2) := by
  after_results_simp
theorem where_keeps_arg3 (W : Valuation τ sig (Elt F)) :
    after (opsWhere (F := F)) W (Proc.devRef .tc main_arg3) = W (Proc.devRef .tc main_arg3) := by
  after_results_simp
theorem where_keeps_arg4 (W : Valuation τ sig (Elt F)) :
    after (opsWhere (F := F)) W (Proc.devRef .tc main_arg4) = W (Proc.devRef .tc main_arg4) := by
  after_results_simp
theorem where_keeps_arg5 (W : Valuation τ sig (Elt F)) :
    after (opsWhere (F := F)) W (Proc.devRef .tc main_arg5) = W (Proc.devRef .tc main_arg5) := by
  after_results_simp

theorem weights_edgeWeight (W : Valuation τ sig (Elt F)) (e : (⟨S2x3200000, .i32⟩ : BufTy).Contents (Elt F))
    (h3 : W (Proc.devRef .tc main_v3) = Cert.Gcn.sources (F := F) e)
    (h6 : W (Proc.devRef .tc main_v6) = Cert.Gcn.targets (F := F) e)
    (h14 : W (Proc.devRef .tc main_v14) = Cert.Gcn.invSqrtDegree (F := F) e) :
    after (opsWeights (F := F)) W (Proc.devRef .tc main_v29) = Cert.Gcn.edgeWeight (F := F) e := by
  after_results_simp
  rw [h3, h6, h14]
  unfold Cert.Gcn.edgeWeight Cert.Gcn.wrapIndex
  rfl
theorem weights_keeps_v3 (W : Valuation τ sig (Elt F)) :
    after (opsWeights (F := F)) W (Proc.devRef .tc main_v3) = W (Proc.devRef .tc main_v3) := by
  after_results_simp
theorem weights_keeps_v6 (W : Valuation τ sig (Elt F)) :
    after (opsWeights (F := F)) W (Proc.devRef .tc main_v6) = W (Proc.devRef .tc main_v6) := by
  after_results_simp
theorem weights_keeps_arg0 (W : Valuation τ sig (Elt F)) :
    after (opsWeights (F := F)) W (Proc.devRef .tc main_arg0) = W (Proc.devRef .tc main_arg0) := by
  after_results_simp
theorem weights_keeps_arg2 (W : Valuation τ sig (Elt F)) :
    after (opsWeights (F := F)) W (Proc.devRef .tc main_arg2) = W (Proc.devRef .tc main_arg2) := by
  after_results_simp
theorem weights_keeps_arg3 (W : Valuation τ sig (Elt F)) :
    after (opsWeights (F := F)) W (Proc.devRef .tc main_arg3) = W (Proc.devRef .tc main_arg3) := by
  after_results_simp
theorem weights_keeps_arg4 (W : Valuation τ sig (Elt F)) :
    after (opsWeights (F := F)) W (Proc.devRef .tc main_arg4) = W (Proc.devRef .tc main_arg4) := by
  after_results_simp
theorem weights_keeps_arg5 (W : Valuation τ sig (Elt F)) :
    after (opsWeights (F := F)) W (Proc.devRef .tc main_arg5) = W (Proc.devRef .tc main_arg5) := by
  after_results_simp

theorem layer1_sum (W : Valuation τ sig (Elt F)) (e : (⟨S2x3200000, .i32⟩ : BufTy).Contents (Elt F))
    (h3 : W (Proc.devRef .tc main_v3) = Cert.Gcn.sources (F := F) e)
    (h6 : W (Proc.devRef .tc main_v6) = Cert.Gcn.targets (F := F) e)
    (h29 : W (Proc.devRef .tc main_v29) = Cert.Gcn.edgeWeight (F := F) e) :
    after (opsLayer1 (F := F)) W (Proc.devRef .tc main_v46)
      = addf (Cert.Gcn.propagate16 (F := F) (Host.dotGeneral (φ₁ := .f32) (φ₂ := .f32) dot_S100000x1000_S1000x16_S100000x16_1_0_0_1_n_n none (W (Proc.devRef .tc main_arg0)) (W (Proc.devRef .tc main_arg2))) e) (broadcastInDim S100000x16 ![0, 1] bcast_S1x16_S100000x16_0_1 (broadcastInDim S1x16 ![1] bcast_S16_S1x16_1 (W (Proc.devRef .tc main_arg3)))) := by
  after_results_simp
  rw [h3, h6, h29]
  unfold Cert.Gcn.propagate16 Cert.Gcn.wrapIndex
  rfl
theorem layer1_keeps_v3 (W : Valuation τ sig (Elt F)) :
    after (opsLayer1 (F := F)) W (Proc.devRef .tc main_v3) = W (Proc.devRef .tc main_v3) := by
  after_results_simp
theorem layer1_keeps_v6 (W : Valuation τ sig (Elt F)) :
    after (opsLayer1 (F := F)) W (Proc.devRef .tc main_v6) = W (Proc.devRef .tc main_v6) := by
  after_results_simp
theorem layer1_keeps_v29 (W : Valuation τ sig (Elt F)) :
    after (opsLayer1 (F := F)) W (Proc.devRef .tc main_v29) = W (Proc.devRef .tc main_v29) := by
  after_results_simp
theorem layer1_keeps_arg4 (W : Valuation τ sig (Elt F)) :
    after (opsLayer1 (F := F)) W (Proc.devRef .tc main_arg4) = W (Proc.devRef .tc main_arg4) := by
  after_results_simp
theorem layer1_keeps_arg5 (W : Valuation τ sig (Elt F)) :
    after (opsLayer1 (F := F)) W (Proc.devRef .tc main_arg5) = W (Proc.devRef .tc main_arg5) := by
  after_results_simp

theorem relu_max (W : Valuation τ sig (Elt F)) :
    after (opsRelu (F := F)) W (Proc.devRef .tc main_v47)
      = maximumf ((W (Proc.devRef .tc main_v46)) : (⟨S100000x16, .f32⟩ : BufTy).Contents (Elt F)) (broadcastInDim S100000x16 ![] bcast_S_S100000x16 (constant S_ .f32 0x00000000#32)) := by
  after_results_simp <;> rfl
theorem relu_keeps_v3 (W : Valuation τ sig (Elt F)) :
    after (opsRelu (F := F)) W (Proc.devRef .tc main_v3) = W (Proc.devRef .tc main_v3) := by
  after_results_simp
theorem relu_keeps_v6 (W : Valuation τ sig (Elt F)) :
    after (opsRelu (F := F)) W (Proc.devRef .tc main_v6) = W (Proc.devRef .tc main_v6) := by
  after_results_simp
theorem relu_keeps_v29 (W : Valuation τ sig (Elt F)) :
    after (opsRelu (F := F)) W (Proc.devRef .tc main_v29) = W (Proc.devRef .tc main_v29) := by
  after_results_simp
theorem relu_keeps_arg4 (W : Valuation τ sig (Elt F)) :
    after (opsRelu (F := F)) W (Proc.devRef .tc main_arg4) = W (Proc.devRef .tc main_arg4) := by
  after_results_simp
theorem relu_keeps_arg5 (W : Valuation τ sig (Elt F)) :
    after (opsRelu (F := F)) W (Proc.devRef .tc main_arg5) = W (Proc.devRef .tc main_arg5) := by
  after_results_simp

theorem layer2_sum (W : Valuation τ sig (Elt F)) (e : (⟨S2x3200000, .i32⟩ : BufTy).Contents (Elt F))
    (h3 : W (Proc.devRef .tc main_v3) = Cert.Gcn.sources (F := F) e)
    (h6 : W (Proc.devRef .tc main_v6) = Cert.Gcn.targets (F := F) e)
    (h29 : W (Proc.devRef .tc main_v29) = Cert.Gcn.edgeWeight (F := F) e) :
    after (opsLayer2 (F := F)) W (Proc.devRef .tc main_v64)
      = addf (Cert.Gcn.propagate20 (F := F) (Host.dotGeneral (φ₁ := .f32) (φ₂ := .f32) dot_S100000x16_S16x20_S100000x20_1_0_0_1_n_n none (W (Proc.devRef .tc main_v47)) (W (Proc.devRef .tc main_arg4))) e) (broadcastInDim S100000x20 ![0, 1] bcast_S1x20_S100000x20_0_1 (broadcastInDim S1x20 ![1] bcast_S20_S1x20_1 (W (Proc.devRef .tc main_arg5)))) := by
  after_results_simp
  rw [h3, h6, h29]
  unfold Cert.Gcn.propagate20 Cert.Gcn.wrapIndex
  rfl

/-- The row maxima, from the logits' buffer. -/
theorem rowMax_eq (W : Valuation τ sig (Elt F)) :
    after (opsRowMax (F := F)) W (Proc.devRef .tc main_call2_v0)
      = Host.reduce FloatOps.maximumf ((W (Proc.devRef .tc main_v64)) : (⟨S100000x20, .f32⟩ : BufTy).Contents (Elt F)) (constant (F := F) S_ .f32 0xFF800000#32) reducesTo_S100000x20_S100000_d1 h_S_ := by
  after_results_simp
  -- the typed builders move every operand and result along an equation between a buffer's type and itself: each
  -- such move is the identity, removed one at a time, so that the row reduction itself is never opened
  dsimp only [TRef.toBuf, TRef.ofBuf]
  repeat erw [cast_eq]
  all_goals rfl
theorem rowMax_keeps_v64 (W : Valuation τ sig (Elt F)) :
    after (opsRowMax (F := F)) W (Proc.devRef .tc main_v64) = W (Proc.devRef .tc main_v64) := by
  after_results_simp

/-- Every entry minus its row's maximum (the maximum taken once more against minus infinity). -/
theorem centered_eq (W : Valuation τ sig (Elt F)) :
    after (opsCentered (F := F)) W (Proc.devRef .tc main_call2_v5)
      = subf ((W (Proc.devRef .tc main_v64)) : (⟨S100000x20, .f32⟩ : BufTy).Contents (Elt F))
          (broadcastInDim S100000x20 ![0, 1] bcast_S100000x1_S100000x20_0_1 (broadcastInDim S100000x1 ![0] bcast_S100000_S100000x1_0
            (maximumf (broadcastInDim S100000 ![] bcast_S_S100000 (constant S_ .f32 0xFF800000#32)) ((W (Proc.devRef .tc main_call2_v0)) : (⟨S100000, .f32⟩ : BufTy).Contents (Elt F))))) := by
  after_results_simp <;> rfl

/-- The row sums of the exponentials. -/
theorem sumExp_eq (W : Valuation τ sig (Elt F)) :
    after (opsSumExp (F := F)) W (Proc.devRef .tc main_call2_v7)
      = Host.reduceAdd (Host.exp ((W (Proc.devRef .tc main_call2_v5)) : (⟨S100000x20, .f32⟩ : BufTy).Contents (Elt F))) (constant (F := F) S_ .f32 0x00000000#32) reducesTo_S100000x20_S100000_d1 h_S_ := by
  after_results_simp
  dsimp only [TRef.toBuf, TRef.ofBuf]
  repeat erw [cast_eq]
  all_goals rfl
theorem sumExp_keeps_v5 (W : Valuation τ sig (Elt F)) :
    after (opsSumExp (F := F)) W (Proc.devRef .tc main_call2_v5) = W (Proc.devRef .tc main_call2_v5) := by
  after_results_simp

/-- Every difference minus the logarithm of its row's sum. -/
theorem logSub_eq (W : Valuation τ sig (Elt F)) :
    after (opsLogSub (F := F)) W (Proc.devRef .tc main_v65)
      = subf ((W (Proc.devRef .tc main_call2_v5)) : (⟨S100000x20, .f32⟩ : BufTy).Contents (Elt F))
          (broadcastInDim S100000x20 ![0, 1] bcast_S100000x1_S100000x20_0_1 (Host.log (broadcastInDim S100000x1 ![0] bcast_S100000_S100000x1_0
            ((W (Proc.devRef .tc main_call2_v7)) : (⟨S100000, .f32⟩ : BufTy).Contents (Elt F))))) := by
  after_results_simp <;> rfl

theorem logSoftmax_rows (W : Valuation τ sig (Elt F)) :
    after (opsLogSoftmax (F := F)) W (Proc.devRef .tc main_v65) = Cert.Gcn.logSoftmaxRows (F := F) ((W (Proc.devRef .tc main_v64)) : (⟨S100000x20, .f32⟩ : BufTy).Contents (Elt F)) := by
  rw [opsLogSoftmax_split, after_append, after_append, after_append]
  rw [logSub_eq, sumExp_eq, sumExp_keeps_v5, centered_eq, rowMax_eq, rowMax_keeps_v64]
  rfl

/-! ## The stretches composed -/

/-- From any contents `V` of the buffers, the fold of @main's operations leaves the result buffer at the row-wise
    log-softmax of the logits of `V`'s argument arrays. -/
theorem result_eq (V : Valuation τ sig (Elt F)) :
    after (ops (F := F)) V (Proc.devRef .tc main_v65)
      = Cert.Gcn.logSoftmaxRows (F := F) (Cert.Gcn.logits (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) := by
  rw [ops_split, after_append, after_append, after_append, after_append, after_append, after_append]
  -- after the edge stretch
  have s3 := edges_sources (F := F) V
  have s6 := edges_targets (F := F) V
  have s12 := edges_positive (F := F) V
  have s13 := edges_rsqrt (F := F) V
  have sz := edges_zero (F := F) V
  -- after the selection
  have t14 : (after (opsWhere (F := F)) (after (opsEdges (F := F)) V)) (Proc.devRef .tc main_v14) = Cert.Gcn.invSqrtDegree (F := F) (V (Proc.devRef .tc main_arg1)) := by
    rw [where_select, s12, s13, sz]; rfl
  have t3 := (where_keeps_v3 (F := F) (after (opsEdges (F := F)) V)).trans s3
  have t6 := (where_keeps_v6 (F := F) (after (opsEdges (F := F)) V)).trans s6
  -- after the edge weights
  have u29 := weights_edgeWeight (F := F) (after (opsWhere (F := F)) (after (opsEdges (F := F)) V)) (V (Proc.devRef .tc main_arg1)) t3 t6 t14
  have u3 := (weights_keeps_v3 (F := F) (after (opsWhere (F := F)) (after (opsEdges (F := F)) V))).trans t3
  have u6 := (weights_keeps_v6 (F := F) (after (opsWhere (F := F)) (after (opsEdges (F := F)) V))).trans t6
  have ua0 : (after (opsWeights (F := F)) (after (opsWhere (F := F)) (after (opsEdges (F := F)) V))) (Proc.devRef .tc main_arg0) = V (Proc.devRef .tc main_arg0) := by rw [weights_keeps_arg0, where_keeps_arg0, edges_keeps_arg0]
  have ua2 : (after (opsWeights (F := F)) (after (opsWhere (F := F)) (after (opsEdges (F := F)) V))) (Proc.devRef .tc main_arg2) = V (Proc.devRef .tc main_arg2) := by rw [weights_keeps_arg2, where_keeps_arg2, edges_keeps_arg2]
  have ua3 : (after (opsWeights (F := F)) (after (opsWhere (F := F)) (after (opsEdges (F := F)) V))) (Proc.devRef .tc main_arg3) = V (Proc.devRef .tc main_arg3) := by rw [weights_keeps_arg3, where_keeps_arg3, edges_keeps_arg3]
  have ua4 : (after (opsWeights (F := F)) (after (opsWhere (F := F)) (after (opsEdges (F := F)) V))) (Proc.devRef .tc main_arg4) = V (Proc.devRef .tc main_arg4) := by rw [weights_keeps_arg4, where_keeps_arg4, edges_keeps_arg4]
  have ua5 : (after (opsWeights (F := F)) (after (opsWhere (F := F)) (after (opsEdges (F := F)) V))) (Proc.devRef .tc main_arg5) = V (Proc.devRef .tc main_arg5) := by rw [weights_keeps_arg5, where_keeps_arg5, edges_keeps_arg5]
  -- after the first layer's sum
  have v46 : (after (opsLayer1 (F := F)) (after (opsWeights (F := F)) (after (opsWhere (F := F)) (after (opsEdges (F := F)) V)))) (Proc.devRef .tc main_v46)
      = addf (Cert.Gcn.propagate16 (F := F) (Host.dotGeneral (φ₁ := .f32) (φ₂ := .f32) dot_S100000x1000_S1000x16_S100000x16_1_0_0_1_n_n none (V (Proc.devRef .tc main_arg0)) (V (Proc.devRef .tc main_arg2))) (V (Proc.devRef .tc main_arg1))) (broadcastInDim S100000x16 ![0, 1] bcast_S1x16_S100000x16_0_1 (broadcastInDim S1x16 ![1] bcast_S16_S1x16_1 (V (Proc.devRef .tc main_arg3)))) := by
    rw [layer1_sum (F := F) (after (opsWeights (F := F)) (after (opsWhere (F := F)) (after (opsEdges (F := F)) V))) (V (Proc.devRef .tc main_arg1)) u3 u6 u29, ua0, ua2, ua3]
  have v3 := (layer1_keeps_v3 (F := F) (after (opsWeights (F := F)) (after (opsWhere (F := F)) (after (opsEdges (F := F)) V)))).trans u3
  have v6 := (layer1_keeps_v6 (F := F) (after (opsWeights (F := F)) (after (opsWhere (F := F)) (after (opsEdges (F := F)) V)))).trans u6
  have v29 := (layer1_keeps_v29 (F := F) (after (opsWeights (F := F)) (after (opsWhere (F := F)) (after (opsEdges (F := F)) V)))).trans u29
  have va4 := (layer1_keeps_arg4 (F := F) (after (opsWeights (F := F)) (after (opsWhere (F := F)) (after (opsEdges (F := F)) V)))).trans ua4
  have va5 := (layer1_keeps_arg5 (F := F) (after (opsWeights (F := F)) (after (opsWhere (F := F)) (after (opsEdges (F := F)) V)))).trans ua5
  -- after the rectification
  have w47 : (after (opsRelu (F := F)) (after (opsLayer1 (F := F)) (after (opsWeights (F := F)) (after (opsWhere (F := F)) (after (opsEdges (F := F)) V))))) (Proc.devRef .tc main_v47) = Cert.Gcn.hidden (F := F) (V (Proc.devRef .tc main_arg0)) (V (Proc.devRef .tc main_arg1)) (V (Proc.devRef .tc main_arg2)) (V (Proc.devRef .tc main_arg3)) := by
    rw [relu_max, v46]; rfl
  have w3 := (relu_keeps_v3 (F := F) (after (opsLayer1 (F := F)) (after (opsWeights (F := F)) (after (opsWhere (F := F)) (after (opsEdges (F := F)) V))))).trans v3
  have w6 := (relu_keeps_v6 (F := F) (after (opsLayer1 (F := F)) (after (opsWeights (F := F)) (after (opsWhere (F := F)) (after (opsEdges (F := F)) V))))).trans v6
  have w29 := (relu_keeps_v29 (F := F) (after (opsLayer1 (F := F)) (after (opsWeights (F := F)) (after (opsWhere (F := F)) (after (opsEdges (F := F)) V))))).trans v29
  have wa4 := (relu_keeps_arg4 (F := F) (after (opsLayer1 (F := F)) (after (opsWeights (F := F)) (after (opsWhere (F := F)) (after (opsEdges (F := F)) V))))).trans va4
  have wa5 := (relu_keeps_arg5 (F := F) (after (opsLayer1 (F := F)) (after (opsWeights (F := F)) (after (opsWhere (F := F)) (after (opsEdges (F := F)) V))))).trans va5
  -- after the second layer's sum
  have x64 : (after (opsLayer2 (F := F)) (after (opsRelu (F := F)) (after (opsLayer1 (F := F)) (after (opsWeights (F := F)) (after (opsWhere (F := F)) (after (opsEdges (F := F)) V)))))) (Proc.devRef .tc main_v64) = Cert.Gcn.logits (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
    rw [layer2_sum (F := F) (after (opsRelu (F := F)) (after (opsLayer1 (F := F)) (after (opsWeights (F := F)) (after (opsWhere (F := F)) (after (opsEdges (F := F)) V))))) (V (Proc.devRef .tc main_arg1)) w3 w6 w29, w47, wa4, wa5]; rfl
  rw [logSoftmax_rows, x64]

/-- No operation of @main writes argument 0. -/
theorem kept_arg0 (V : Valuation τ sig (Elt F)) : after (ops (F := F)) V (Proc.devRef .tc main_arg0) = V (Proc.devRef .tc main_arg0) :=
  after_of_forall_not_mem (b := (Proc.devRef .tc main_arg0)) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
/-- No operation of @main writes argument 1. -/
theorem kept_arg1 (V : Valuation τ sig (Elt F)) : after (ops (F := F)) V (Proc.devRef .tc main_arg1) = V (Proc.devRef .tc main_arg1) :=
  after_of_forall_not_mem (b := (Proc.devRef .tc main_arg1)) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
/-- No operation of @main writes argument 2. -/
theorem kept_arg2 (V : Valuation τ sig (Elt F)) : after (ops (F := F)) V (Proc.devRef .tc main_arg2) = V (Proc.devRef .tc main_arg2) :=
  after_of_forall_not_mem (b := (Proc.devRef .tc main_arg2)) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
/-- No operation of @main writes argument 3. -/
theorem kept_arg3 (V : Valuation τ sig (Elt F)) : after (ops (F := F)) V (Proc.devRef .tc main_arg3) = V (Proc.devRef .tc main_arg3) :=
  after_of_forall_not_mem (b := (Proc.devRef .tc main_arg3)) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
/-- No operation of @main writes argument 4. -/
theorem kept_arg4 (V : Valuation τ sig (Elt F)) : after (ops (F := F)) V (Proc.devRef .tc main_arg4) = V (Proc.devRef .tc main_arg4) :=
  after_of_forall_not_mem (b := (Proc.devRef .tc main_arg4)) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
/-- No operation of @main writes argument 5. -/
theorem kept_arg5 (V : Valuation τ sig (Elt F)) : after (ops (F := F)) V (Proc.devRef .tc main_arg5) = V (Proc.devRef .tc main_arg5) :=
  after_of_forall_not_mem (b := (Proc.devRef .tc main_arg5)) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

/-! ## The run -/

/-- Every weakly fair execution of the reference's @main terminates with the result buffer at the row-wise
    log-softmax of the logits of the launched arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = Cert.Gcn.logSoftmaxRows (F := F) (Cert.Gcn.logits (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq (F := F) (launchContents m c)),
      (h c main_arg0).trans (kept_arg0 (F := F) (launchContents m c)),
      (h c main_arg1).trans (kept_arg1 (F := F) (launchContents m c)),
      (h c main_arg2).trans (kept_arg2 (F := F) (launchContents m c)),
      (h c main_arg3).trans (kept_arg3 (F := F) (launchContents m c)),
      (h c main_arg4).trans (kept_arg4 (F := F) (launchContents m c)),
      (h c main_arg5).trans (kept_arg5 (F := F) (launchContents m c))⟩)
    (run_seq scopedRefs_eq scopedSems_eq defs main (fun _ => ops) main_eq (fun _ => ops_sub) m ρ)

end Cert.ReferenceIdeal.Staged

end
-- ==== Proof.lean ====
/-
  A two-layer graph convolution with a row-wise log-softmax, computed two ways.

  Both programs extend the edge list by a self loop per node, weigh every edge by the inverse square roots of the
  degrees at its two ends, and then, twice, multiply the node array by a weight matrix, gather the product's rows at
  the edges' sources, scale them by the edge weights, add them up at the edges' targets and add a bias; the first
  layer's result is rectified, the second layer's passed through a row-wise log-softmax. The reference does all of this
  with whole-array operations. The kernel program does the two dense products, the bias-and-rectify step and the
  bias-and-log-softmax step in four tiled regions of fifty bands of 2000 rows, and everything else with the same
  whole-array operations as the reference, in the same order.

  On the extended reals each region leaves exactly what the reference's whole-array operations compute: a band of a
  dense product is the band of the whole product (the body's casts to a narrower float format are the identity and its
  accumulator starts at zero); adding a broadcast bias row and taking a maximum with zero are entrywise; and a row's
  log-softmax reads that row only (its maximum with minus infinity first is the row's maximum). No step rearranges a
  sum or uses distributivity, so the finiteness of the inputs is never used. The two results are therefore one term:
  the row-wise log-softmax of the logits of the arguments.

  The three frames: the kernel program's two are the region-by-region frame proofs of its four tiled regions; the
  reference's is its run with the result dropped. The idealization rewrote nothing, so it preserves trivially.
-/
import proofs.«170878_j37941741093521_1_alg».proof.Defs
import proofs.«170878_j37941741093521_1_alg».proof.Proof.Gen.Kernel
import proofs.«170878_j37941741093521_1_alg».proof.Proof.Gen.Kernel.Frame
import proofs.«170878_j37941741093521_1_alg».proof.Proof.Gen.KernelIdeal
import proofs.«170878_j37941741093521_1_alg».proof.Proof.Gen.KernelIdeal.Frame
import proofs.«170878_j37941741093521_1_alg».proof.Proof.Gen.ReferenceIdeal
import proofs.«170878_j37941741093521_1_alg».proof.Proof.Gen.Pre_finite_inputs
import proofs.«170878_j37941741093521_1_alg».proof.Proof.KernelRun
import proofs.«170878_j37941741093521_1_alg».proof.Proof.KernelValue
import proofs.«170878_j37941741093521_1_alg».proof.Proof.RefStaged
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- The ideal pass rewrote no operation. -/
theorem preserves : Cert.preserves_Kernel_KernelIdeal := trivial

/-- Both programs end with the row-wise log-softmax of the logits of the arguments: the kernel program by following
    its segments, the reference by reading its operations in stretches; the arguments agree by hypothesis. -/
theorem algebraic : Cert.algebraic_KernelIdeal_ReferenceIdeal := by
  intro m ρ m' ρ' _ hagree
  refine ⟨fun c => Cert.Gcn.logSoftmaxRows (F := Ideal) (Cert.Gcn.logits (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.KernelIdeal.Chain.result m ρ c), (h c).2⟩)
      (Cert.KernelIdeal.GcnRun.run_result (F := Ideal) m ρ)
  · refine (θ_run Cert.ReferenceIdeal.defs _ _).mono (fun r h c => ⟨(h c).1.trans ?_, (h c).2⟩)
      (Cert.ReferenceIdeal.Staged.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
